-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S16384x64 : Shape := ⟨2, ![16384, 64]⟩
abbrev S512 : Shape := ⟨1, ![512]⟩
abbrev S512x64 : Shape := ⟨2, ![512, 64]⟩
abbrev S_ : Shape := ⟨0, ![]⟩
abbrev S1 : Shape := ⟨1, ![1]⟩
abbrev S1x64 : Shape := ⟨2, ![1, 64]⟩
abbrev S64 : Shape := ⟨1, ![64]⟩
abbrev S125000x8x64 : Shape := ⟨3, ![125000, 8, 64]⟩
abbrev S1x1x64 : Shape := ⟨3, ![1, 1, 64]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S16384x64, .f32⟩
  | .local .scVector .vmem, ⟨0, _⟩ => ⟨S512, .i32⟩
  | .local .scVector .vmem, ⟨1, _⟩ => ⟨S512x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c512_i32_0 : BitVec 32 := 512#32
  let v3 : BitVec 32 := Scalar.addi c0_i32 c512_i32_0
  let c1_i32 : BitVec 32 := 1#32
  ⟨c0_i32, v3, c1_i32⟩
def k0_off2 (k0_t1 : Fin k0_t1_loop.trips) : Fin 1 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v5 : BitVec 32 := Scalar.muli arg8 c1_i32_6
  let v6 : BitVec 32 := Scalar.addi c0_i32_7 v5
  let v7 : Index := Scalar.indexCast v6
  ![v7.toNat]
def k0_off3 (k0_t1 : Fin k0_t1_loop.trips) : Fin 2 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v5 : BitVec 32 := Scalar.muli arg8 c1_i32_6
  let v6 : BitVec 32 := Scalar.addi c0_i32_7 v5
  let c0_i32_8 : BitVec 32 := 0#32
  ![v6.toNat, 0]
def k0_off4 (v10 : BitVec 32) : Fin 3 → Nat :=
  let c3_i32 : BitVec 32 := 3#32
  let v11 : BitVec 32 := Scalar.shrsi v10 c3_i32
  let c7_i32 : BitVec 32 := 7#32
  let v12 : BitVec 32 := Scalar.andi v10 c7_i32
  let c0_i32_9 : BitVec 32 := 0#32
  ![v11.toNat, v12.toNat, 0]

def k0_chk1 (v10 : BitVec 32) : Prop :=
  (∀ a, (k0_off4 v10) a + S1x1x64.size a ≤ S125000x8x64.size a)
instance k0_chk1.dec : ∀ (v10 : BitVec 32), Decidable (k0_chk1 v10) := fun v10 => decidable_of_iff' _ (Iff.of_eq (k0_chk1.eq_1 v10))
theorem k0_off4_inb : ∀ (v10 : BitVec 32) (k0_hw1 : k0_chk1 v10), ∀ a, (k0_off4 v10) a + S1x1x64.size a ≤ S125000x8x64.size a := fun v10 k0_hw1 => k0_hw1

def k0_off5 (k0_t1 : Fin k0_t1_loop.trips) : Fin 2 → Nat :=
  let c0_i32_7 : BitVec 32 := 0#32
  let c0_i32 : BitVec 32 := 0#32
  let c1_i32 : BitVec 32 := 1#32
  let arg8 : BitVec 32 := Scf.iv c0_i32 c1_i32 k0_t1
  let c1_i32_6 : BitVec 32 := 1#32
  let v5 : BitVec 32 := Scalar.muli arg8 c1_i32_6
  let v6 : BitVec 32 := Scalar.addi c0_i32_7 v5
  let c0_i32_10 : BitVec 32 := 0#32
  ![v6.toNat, 0]
@[reducible] def k0_t2_loop : Scf.Loop 32 :=
  let c0_i32_2 : BitVec 32 := 0#32
  let c512_i32_3 : BitVec 32 := 512#32
  let v4 : BitVec 32 := Scalar.addi c0_i32_2 c512_i32_3
  let c1_i32_4 : BitVec 32 := 1#32
  ⟨c0_i32_2, v4, c1_i32_4⟩
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1 : 0 < S1.numel
  shapeCasts_S1_S1 : S1.ShapeCasts S1
  inpos_S1_p0 : ∀ a, (![0] : Fin 1 → Nat) a < S1.size a
  squeezes_S1x64_S64 : S1x64.Squeezes S64
  reshapes_S1000000x64_S125000x8x64 : S125000x8x64.numel = S1000000x64.numel ∧ (2 ≤ S1000000x64.rank ∧ 2 ≤ S125000x8x64.rank)
  squeezes_S1x1x64_S64 : S1x1x64.Squeezes S64
  inb_S512x64_S1x64_0_0 : ∀ a, (![0, 0] : Fin 2 → Nat) a + S1x64.size a ≤ S512x64.size a
  inb_S125000x8x64_S1x1x64_0_0_0 : ∀ a, (![0, 0, 0] : Fin 3 → Nat) a + S1x1x64.size a ≤ S125000x8x64.size a
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S1.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ a, (k0_off5 k0_t1) a + S1x64.size a ≤ S512x64.size a
  k0_t2_ok : k0_t2_loop.OK
  k0_off6_inb : ∀ i : grid0.Coords, ∀ a, (k0_off6 i) a + S512x64.size a ≤ S16384x64.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.Spec.lean ====
/-
  The function both programs compute: an embedding lookup. For an index list `act` of 16384 32-bit words and a
  table of 1000000 rows of 64 entries, entry (n, j) of the result is entry j of the table's row number act[n].
  The row number is taken modulo the number of rows so that the function is total; for an index word that already
  names a row (its unsigned value at most 999999) it is that row.
-/
import Idealize.ShloMosaic.Lib.ValueIdx
import Idealize.ShloMosaic.PureOps

namespace Cert.Lookup

open Idealize.ShloMosaic Idealize.ShloMosaic.ValueIdx

/-- The index list's shape, the table's and the result's. -/
abbrev SAct : Shape := ⟨1, ![16384]⟩
abbrev STab : Shape := ⟨2, ![1000000, 64]⟩
abbrev SOut : Shape := ⟨2, ![16384, 64]⟩

/-- The table row an index word names. -/
def rowOf (a : BitVec 32) : Fin 1000000 := ⟨a.toNat % 1000000, Nat.mod_lt _ (by norm_num)⟩

/-- A word whose unsigned value is a row number names that row. -/
theorem rowOf_val (a : BitVec 32) (h : a.toNat ≤ 999999) : (rowOf a).val = a.toNat :=
  Nat.mod_eq_of_lt (by omega)

/-- The lookup: result entry (n, j) is the table's entry (row of act[n], j). -/
def G {α : Type} (act : IVec SAct 32) (table : STab.Idx → α) : SOut.Idx → α :=
  fun i => table (ix2 (rowOf (act (ix1 ⟨(i 0).val, idx2_lt0 i⟩))) ⟨(i 1).val, idx2_lt1 i⟩)

/-- The lookup read at coordinates. -/
theorem G_apply {α : Type} (act : IVec SAct 32) (table : STab.Idx → α) (n : Fin 16384) (j : Fin 64) :
    G act table (ix2 n j) = table (ix2 (rowOf (act (ix1 n))) j) := rfl

end Cert.Lookup
-- ==== Proof.PreRange.lean ====
/-
  The precondition read back: when the printed input-domain predicate holds, every index word names a table row,
  that is, its unsigned value is at most 999999. Only the integer half of the predicate's conjunction is used.
-/
import proofs.«202693_g82240033784155_cont_sun_c4_174_23_alg».proof.Pre_input_domain
import proofs.«202693_g82240033784155_cont_sun_c4_174_23_alg».proof.Proof.Gen.Pre_input_domain
import proofs.«202693_g82240033784155_cont_sun_c4_174_23_alg».proof.Proof.Spec
import Idealize.ShloMosaic.Lib.ReduceAll
import Idealize.ShloMosaic.Lib.ValueIdx

namespace Cert.Lookup

open Idealize.ShloMosaic Idealize.ShloMosaic.ValueIdx

/-- The scalar shape has one index. -/
instance subsingleton_scalarIdx : Subsingleton Cert.Pre_input_domain.S_.Idx := ⟨fun a b => funext fun d => d.elim0⟩

/-- A 32-bit word whose signed value lies between 0 and 999999 has that unsigned value: a word with a nonnegative
    signed value reads the same signed and unsigned. -/
theorem toNat_le_of_signed_range (a : BitVec 32) (h0 : (0#32 : BitVec 32).toInt ≤ a.toInt)
    (h1 : a.toInt ≤ (999999#32 : BitVec 32).toInt) : a.toNat ≤ 999999 := by
  have e0 : (0#32 : BitVec 32).toInt = 0 := by decide
  have e1 : (999999#32 : BitVec 32).toInt = 999999 := by decide
  rw [e0] at h0
  rw [e1] at h1
  have hlt : 2 * a.toNat < 2 ^ 32 := BitVec.toInt_pos_iff.1 h0
  rw [BitVec.toInt_eq_toNat_of_lt hlt] at h1
  omega

/-- Under the input-domain predicate every index word is a row number. -/
theorem act_range {F : FTy → Type} [FloatOps F] (act : IVec Cert.Pre_input_domain.S16384 32)
    (table : FVec F Cert.Pre_input_domain.S1000000x64 .f32)
    (h : Cert.Pre_input_domain.fn (F := F) act table = fun _ => 1#1) : ∀ n, (act n).toNat ≤ 999999 := by
  intro n
  have h0 := congrFun h ix0
  dsimp only [Cert.Pre_input_domain.fn] at h0
  obtain ⟨-, h9⟩ := IntOp.andi_eq_one.1 h0
  have h8 := Host.reduce_andi_all _ _ _ _ _ h9 n
  obtain ⟨h5, h7⟩ := IntOp.andi_eq_one.1 h8
  exact toNat_le_of_signed_range (act n) (IntOp.cmpi_sge.1 h5) (IntOp.cmpi_sle.1 h7)

end Cert.Lookup
-- ==== Proof.RefOps.lean ====
/-
  The reference program's @main as a straight line of its 23 host operations, the two module-local functions unfolded
  at their calls (the index fix-up's 7 — the sign test, the wrapped index, the select between them —, the range mask's
  11, the gather, and the final select's 4), and its run: every weakly fair execution terminates with every buffer at
  the operations' fold over the launch contents.
-/
import proofs.«202693_g82240033784155_cont_sun_c4_174_23_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in order, the calls unfolded: the lookup function's body over the call's buffers, with the
    one-operation select function's line in its place. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- @main is that straight line: the two functions' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of @main
    terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as one term of its two arguments — the index fix-up (a negative index wrapped by the number of
  rows), the fixed index as a column, the mask "the fixed index names a row", the gather of table rows at the column, and
  the select between the gathered rows and a constant under the mask — and its value when every index word already names
  a row: the fix-up changes nothing, the mask is all ones, the gather's clamp is the identity, so entry (n, j) is the
  table's entry (row of act[n], j). The select's constant arm is never taken and is never evaluated.
-/
import proofs.«202693_g82240033784155_cont_sun_c4_174_23_alg».proof.Proof.Gen.ReferenceIdeal
import proofs.«202693_g82240033784155_cont_sun_c4_174_23_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefRun

open Cert.ReferenceIdeal Idealize.ShloMosaic Idealize.ShloMosaic.ValueIdx
open Cert.ReferenceIdeal.Facts₀

variable {F : FTy → Type} [FloatOps F]

/-! ## The composed term -/

/-- The index list after the fix-up: a negative index has the number of rows added. -/
def fixIdx (act : IVec S16384 32) : IVec S16384 32 :=
  select (cmpi .slt act (broadcastInDim S16384 ![] bcast_S_S16384 (constantI S_ 32 0#32)))
    (addi act (broadcastInDim S16384 ![] bcast_S_S16384 (constantI S_ 32 1000000#32))) act

/-- The fixed index list as a column of start indices. -/
def colIdx (act : IVec S16384 32) : IVec S16384x1 32 :=
  broadcastInDim S16384x1 ![0] bcast_S16384_S16384x1_0 (fixIdx act)

/-- The mask: the fixed index lies between 0 and 999999, reduced by "and" over the column's unit axis. -/
def inRange (act : IVec S16384 32) : IVec S16384 1 :=
  Host.reduce IntOp.andi
    (andi (cmpi .sge (colIdx act) (broadcastInDim S16384x1 ![] bcast_S_S16384x1 (constantI S_ 32 0#32)))
      (cmpi .sle (colIdx act) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's result: under the mask the gathered table rows, elsewhere a constant. -/
def refTerm (act : IVec S16384 32) (table : FVec F S1000000x64 .f32) : FVec F S16384x64 .f32 :=
  select (broadcastInDim S16384x64 ![0] bcast_S16384_S16384x64_0 (inRange act))
    (Host.gather gather_S1000000x64_S16384x1_S16384x64_1_0_n_n_0_1_164 table (colIdx act))
    (broadcastInDim S16384x64 ![] bcast_S_S16384x64 (constant S_ .f32 0x7FC00000#32))

/-! ## Words in range -/

/-- A word whose unsigned value is at most 999999 reads the same signed. -/
theorem toInt_of_range (a : BitVec 32) (h : a.toNat ≤ 999999) : a.toInt = (a.toNat : Int) :=
  BitVec.toInt_eq_toNat_of_lt (by omega)

theorem toInt_zero32 : (0#32 : BitVec 32).toInt = 0 := by decide
theorem toInt_maxRow : (999999#32 : BitVec 32).toInt = 999999 := by decide

/-! ## The pieces at an index -/

/-- The fix-up leaves an index that names a row unchanged: it is not negative. -/
theorem fixIdx_apply (act : IVec S16384 32) (h : ∀ i, (act i).toNat ≤ 999999) (i : S16384.Idx) : fixIdx act i = act i := by
  have hc : IntOp.cmpi .slt (act i) 0#32 = 0#1 := eq_zero_of_ne_one fun hc => by
    have := IntOp.cmpi_slt.1 hc
    rw [toInt_of_range _ (h i), toInt_zero32] at this
    omega
  show Scalar.select (IntOp.cmpi .slt (act i) 0#32) _ (act i) = act i
  rw [hc, select_zero]

/-- A list written as a column, at (n, 0), is the list at n. -/
theorem colBroadcast_apply (x : IVec S16384 32) (n : Fin 16384) (z : Fin 1) :
    broadcastInDim S16384x1 ![0] bcast_S16384_S16384x1_0 x (ix2 n z) = x (ix1 n) := by
  refine broadcastInDim_apply ![0] bcast_S16384_S16384x1_0 x (ix2 n z) (ix1 n) ?_
  intro a
  match a with
  | ⟨0, _⟩ =>
    show n.val = if (16384 : ℕ) = 1 then 0 else n.val
    rw [if_neg (by decide)]

/-- The column at (n, 0) is the fixed index at n. -/
theorem colIdx_apply (act : IVec S16384 32) (n : Fin 16384) (z : Fin 1) : colIdx act (ix2 n z) = fixIdx act (ix1 n) := by
  unfold colIdx
  exact colBroadcast_apply _ n z

/-- A left fold by "and" from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    have e : IntOp.andi (1#1) (1#1) = 1#1 := by decide
    rw [List.foldl_cons, hf a, e]
    exact foldl_andi_one f hf l

/-- The mask is all ones when every index names a row. -/
theorem inRange_apply (act : IVec S16384 32) (h : ∀ i, (act i).toNat ≤ 999999) (i : S16384.Idx) : inRange act i = 1#1 := by
  unfold inRange
  rw [Host.reduce_eq_foldl]
  refine foldl_andi_one _ (fun k => ?_) _
  obtain ⟨a, b, rfl⟩ : ∃ a b, k = ix2 a b := ⟨k 0, k 1, eq_ix2 k⟩
  show IntOp.andi (IntOp.cmpi .sge (colIdx act (ix2 a b)) 0#32) (IntOp.cmpi .sle (colIdx act (ix2 a b)) 999999#32) = 1#1
  rw [colIdx_apply, fixIdx_apply act h]
  have ha := h (ix1 a)
  refine IntOp.andi_eq_one.2 ⟨IntOp.cmpi_sge.2 ?_, IntOp.cmpi_sle.2 ?_⟩
  · rw [toInt_of_range _ ha, toInt_zero32]; omega
  · rw [toInt_of_range _ ha, toInt_maxRow]; omega

/-- The mask broadcast along the rows, at (n, j), is the mask at n. -/
theorem maskBroadcast_apply (c : IVec S16384 1) (n : Fin 16384) (j : Fin 64) :
    broadcastInDim S16384x64 ![0] bcast_S16384_S16384x64_0 c (ix2 n j) = c (ix1 n) := by
  refine broadcastInDim_apply ![0] bcast_S16384_S16384x64_0 c (ix2 n j) (ix1 n) ?_
  intro a
  match a with
  | ⟨0, _⟩ =>
    show n.val = if (16384 : ℕ) = 1 then 0 else n.val
    rw [if_neg (by decide)]

/-- The gather read at (n, j): the table at the row the start index at (n, 0) names — read signed and clamped into the
    rows — and column j. The row axis is the one the start index addresses (collapsed in the result), the column axis
    the result's offset axis. -/
theorem gather_apply {α : Type} (x : S1000000x64.Idx → α) (idx : IVec S16384x1 32) (n : Fin 16384) (j : Fin 64) :
    Host.gather gather_S1000000x64_S16384x1_S16384x64_1_0_n_n_0_1_164 x idx (ix2 n j)
      = x (ix2 (⟨min (idx (ix2 n (0 : Fin 1))).toInt.toNat 999999, by omega⟩ : Fin 1000000) j) := by
  unfold Host.gather
  congr 1
  funext a
  refine Fin.ext ?_
  match a with
  | ⟨0, _⟩ =>
    show (gather_S1000000x64_S16384x1_S16384x64_1_0_n_n_0_1_164).start (ix2 n j) idx 0 + (gather_S1000000x64_S16384x1_S16384x64_1_0_n_n_0_1_164).batchCoord (ix2 n j) 0 + (gather_S1000000x64_S16384x1_S16384x64_1_0_n_n_0_1_164).offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x64_S16384x1_S16384x64_1_0_n_n_0_1_164).startIndexMap from List.mem_singleton.mpr rfl)]
    have hsi : (gather_S1000000x64_S16384x1_S16384x64_1_0_n_n_0_1_164).siIdx (ix2 n j) ⟨List.idxOf (0 : Fin 2) (gather_S1000000x64_S16384x1_S16384x64_1_0_n_n_0_1_164).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (gather_S1000000x64_S16384x1_S16384x64_1_0_n_n_0_1_164).start (ix2 n j) idx 1 + (gather_S1000000x64_S16384x1_S16384x64_1_0_n_n_0_1_164).batchCoord (ix2 n j) 1 + (gather_S1000000x64_S16384x1_S16384x64_1_0_n_n_0_1_164).offCoord (ix2 n j) 1 = j.val
    rw [GatherDims.batchCoord_eq_zero _ _ _ List.not_mem_nil]
    unfold GatherDims.start
    rw [dif_neg (show ¬ (1 : Fin 2) ∈ (gather_S1000000x64_S16384x1_S16384x64_1_0_n_n_0_1_164).startIndexMap from by decide)]
    simp only [Nat.add_zero, Nat.zero_add]
    rfl

/-! ## The value -/

/-- When every index word names a row, the reference's result is the lookup. -/
theorem refTerm_eq (act : IVec S16384 32) (table : FVec F S1000000x64 .f32) (h : ∀ i, (act i).toNat ≤ 999999) :
    refTerm act table = Cert.Lookup.G act table := by
  funext i
  obtain ⟨n, j, rfl⟩ : ∃ n j, i = ix2 n j := ⟨i 0, i 1, eq_ix2 i⟩
  rw [Cert.Lookup.G_apply]
  unfold refTerm
  rw [select_apply, maskBroadcast_apply, inRange_apply act h, select_one, gather_apply]
  have hn := h (ix1 n)
  have hc : colIdx act (ix2 n (0 : Fin 1)) = act (ix1 n) := by rw [colIdx_apply, fixIdx_apply act h]
  congr 1
  congr 1
  refine Fin.ext ?_
  show min (colIdx act (ix2 n (0 : Fin 1))).toInt.toNat 999999 = (Cert.Lookup.rowOf (act (ix1 n))).val
  rw [hc, Cert.Lookup.rowOf_val _ hn, toInt_of_range _ hn, Int.toNat_natCast]
  omega

end Cert.ReferenceIdeal.RefRun

end
-- ==== Proof.RefRun.lean ====
/-
  The reference's run under the input-domain predicate: every weakly fair execution of @main terminates, the result
  buffer holds the lookup of the two argument arrays, and the arguments are unchanged. The run of the straight line gives
  every buffer as the operations' fold over the launch contents; at the result buffer the fold is the composed term,
  which is the lookup when every index word names a row, and that the predicate says.
-/
import proofs.«202693_g82240033784155_cont_sun_c4_174_23_alg».proof.Defs
import proofs.«202693_g82240033784155_cont_sun_c4_174_23_alg».proof.Proof.Gen.ReferenceIdeal
import proofs.«202693_g82240033784155_cont_sun_c4_174_23_alg».proof.Proof.Gen.Pre_input_domain
import proofs.«202693_g82240033784155_cont_sun_c4_174_23_alg».proof.Proof.Spec
import proofs.«202693_g82240033784155_cont_sun_c4_174_23_alg».proof.Proof.PreRange
import proofs.«202693_g82240033784155_cont_sun_c4_174_23_alg».proof.Proof.RefOps
import proofs.«202693_g82240033784155_cont_sun_c4_174_23_alg».proof.Proof.RefValue
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

attribute [local irreducible] Host.reduce Host.gather in
/-- The fold at the result buffer is the composed term of the two arguments' contents. -/
theorem after_v0 (V : Valuation τ sig (Elt F)) :
    after ops V (main_v0 : DevRef τ sig) = refTerm (V (main_arg0 : DevRef τ sig)) (V (main_arg1 : DevRef τ sig)) := by
  after_results_simp
  rfl

/-- No operation writes the index list. -/
theorem after_arg0 (V : Valuation τ sig (Elt F)) : after ops V (main_arg0 : DevRef τ sig) = V (main_arg0 : DevRef τ sig) := by
  simp only [after_cons, after_nil]
  rfl

/-- No operation writes the table. -/
theorem after_arg1 (V : Valuation τ sig (Elt F)) : after ops V (main_arg1 : DevRef τ sig) = V (main_arg1 : DevRef τ sig) := by
  simp only [after_cons, after_nil]
  rfl

/-- Under the input-domain predicate: @main runs, its result is the lookup of its arguments, the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0) = Cert.Lookup.G (m ((c.tc : Thread _ _).loc Cert.ReferenceIdeal.main_arg0)) (m ((c.tc : Thread _ _).loc Cert.ReferenceIdeal.main_arg1))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)) :=
  (θ_run defs _ _).mono (fun _ h c =>
      ⟨(h c main_v0).trans ((after_v0 _).trans (refTerm_eq _ _ (Cert.Lookup.act_range _ _ (hpre c)))),
        (h c main_arg0).trans (after_arg0 _),
        (h c main_arg1).trans (after_arg1 _)⟩)
    (run_after m g)

end Cert.ReferenceIdeal.RefRun

end
-- ==== Proof.KI.Common.lean ====
/-
  The lookup kernel as the SparseCore launch theorem sees it, and what the launch's handshakes carry.

  The device's 32 vector subcores each copy 512 consecutive index words, fetch the 512 table rows those words name and
  write them to the matching 512 rows of the result. Subcore s of SparseCore c handles block number 2·s + c. Each subcore
  is handed a read share of the whole index list, a read share of the whole table (read tokens numbered 16·c + s, so
  that all 32 can be split off one array), and its own 512 result rows outright; it hands back its result rows holding the lookup's values (the read
  shares are not needed again: what the launch keeps of the two arrays already fixes their final contents).
-/
import proofs.«202693_g82240033784155_cont_sun_c4_174_23_alg».proof.KernelIdeal
import proofs.«202693_g82240033784155_cont_sun_c4_174_23_alg».proof.Proof.Gen.KernelIdeal
import proofs.«202693_g82240033784155_cont_sun_c4_174_23_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Ring
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and what the lookup leaves -/

variable (m : (ℓ : Loc nD τ sig) → Buf (Elt F) ℓ)

/-- The index list, the table and the result, as device arrays. -/
abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- Every index word names a table row. -/
def PreOK : Prop := ∀ (d : Dev nD) (n : S16384.Idx), (m (aLoc d) n).toNat ≤ 999999

/-- The result array's final contents: the lookup of the launch contents. -/
def Gout (d : Dev nD) : Buf (Elt F) (oLoc d) := Cert.Lookup.G (m (aLoc d)) (m (tLoc d))

/-- A subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The read-token number of subcore s of SparseCore c. -/
def tokNo (c : Fin 2) (s : Fin 16) : ℕ := c.val * 16 + s.val

/-- The result rows of the subcore at grid coordinates L, as the kernel slices them. -/
def oRows (L : grid0.Coords) : Memref sig .scVector .hbm S512x64 .f32 :=
  (Memref.whole main_v0_scv : Memref sig .scVector .hbm S16384x64 .f32).slice (Rect.unit (s := S16384x64) (k0_off6 L) S512x64.size (k0_off6_inb L)) (fun _ => rfl)
def oSet (L : grid0.Coords) : Finset S16384x64.Idx := (oRows L).view.set

/-- The index list and the table under read token n; a subcore's result rows at contents f. -/
abbrev aTok (d : Dev nD) (n : ℕ) : sProp 𝕄 := aLoc d ↦{Transfers.shareTokN fullShare n} m (aLoc d)
abbrev tTok (d : Dev nD) (n : ℕ) : sProp 𝕄 := tLoc d ↦{Transfers.shareTokN fullShare n} m (tLoc d)
abbrev oPart (d : Dev nD) (L : grid0.Coords) (f : Buf (Elt F) (oLoc d)) : sProp 𝕄 := oLoc d ↦[oSet L]{fullShare} f

/-- What a subcore is handed, and what it hands back. -/
def goRes (d : Dev nD) (c : Fin 2) (s : Fin 16) : sProp 𝕄 :=
  iprop(aTok m d (tokNo c s) ∗ tTok m d (tokNo c s) ∗ oPart d (coordsV c s) (m (oLoc d)))
def tdRes (d : Dev nD) (c : Fin 2) (s : Fin 16) : sProp 𝕄 :=
  oPart d (coordsV c s) (Gout m d)

/-- The handshakes' payloads: a SparseCore is handed what its sixteen subcores are, and hands back what they do. -/
def P : (K (F := F)).Pay (nD := nD) (Val := Elt F) (Name := ℕ) (U := UU) where
  st := fun q d c => match q with | 0 => bigSep Finset.univ fun s : Fin 16 => goRes m d c s
  dn := fun q d c => match q with | 0 => bigSep Finset.univ fun s : Fin 16 => tdRes m d c s
  go := fun q d c s => match q with | 0 => goRes m d c s
  td := fun q d c s => match q with | 0 => tdRes m d c s
  x := fun _ _ => iprop(emp)

instance P_storable : (P (F := F) m).IsStorable where
  st q d c := match q with | 0 => by unfold P goRes; infer_instance
  dn q d c := match q with | 0 => by unfold P tdRes; infer_instance
  go q d c s := match q with | 0 => by unfold P goRes; infer_instance
  td q d c s := match q with | 0 => by unfold P tdRes; infer_instance

end Cert.Proof.KI

end
-- ==== Proof.KI.Launch.lean ====
/-
  The launch of the lookup kernel: from a proof of one subcore's task to the run of the whole program.

  @main on the TensorCore is one call. Before it, the index list and the table are each split into 32 read tokens
  (numbered 16·c + s for subcore s of SparseCore c) and a remainder that @main keeps; the result array is split into
  the 32 blocks of 512 rows the subcores write (block number 2·s + c: element (n, j) lies in it exactly when
  n / 512 = 2·s + c, so the blocks are pairwise disjoint and cover the array). Each SparseCore is handed what its
  sixteen subcores are handed and hands back what they hand back. After the call the 32 row blocks come back holding
  the lookup's values and join to the result array whole; the two remainders still hold the launch contents. The final
  memory therefore has the result equal to the lookup of the launch contents and both arguments unchanged.
-/
import proofs.«202693_g82240033784155_cont_sun_c4_174_23_alg».proof.Proof.KI.Common
import Idealize.ShloMosaic.Lib.SparseCore.Launch
import Idealize.ShloMosaic.Lib.StableHlo.Run
import Idealize.ShloMosaic.Lib.Pipeline.Kit
import Idealize.ShloMosaic.Lib.Ring
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The result array as the 32 row blocks the subcores write -/

/-- A subcore's result rows are a unit rectangle of the result array. -/
theorem oSet_eq (L : grid0.Coords) :
    oSet L = (Rect.unit (s := S16384x64) (k0_off6 L) S512x64.size (k0_off6_inb L)).set := by
  unfold oSet oRows
  exact View.set_slice_whole (main_v0_scv : Ref sig .scVector) _

/-- Element (n, j) of the result lies in the rows of the subcore at coordinates L exactly when n's block of 512 rows is
    block number 2·(subcore) + (SparseCore). -/
theorem mem_oSet (L : grid0.Coords) (y : S16384x64.Idx) :
    y ∈ oSet L ↔ (y 0).val / 512 = 2 * (L 1).val + (L 0).val := by
  rw [oSet_eq, Rect.mem_set_unit, k0_off6_eq]
  have h1 : (y 1).val < 64 := (y 1).isLt
  constructor
  · intro H
    have a0 : 1024 * (L 1).val + 512 * (L 0).val ≤ (y 0).val ∧ (y 0).val < 1024 * (L 1).val + 512 * (L 0).val + 512 := H 0
    omega
  · intro H a; fin_cases a
    · show 1024 * (L 1).val + 512 * (L 0).val ≤ (y 0).val ∧ (y 0).val < 1024 * (L 1).val + 512 * (L 0).val + 512
      omega
    · show 0 ≤ (y 1).val ∧ (y 1).val < 0 + 64
      omega

/-- The row blocks, indexed by (SparseCore, subcore). -/
def oBlk (cs : Fin 2 × Fin 16) : Finset S16384x64.Idx := oSet (coordsV cs.1 cs.2)

theorem mem_oBlk (cs : Fin 2 × Fin 16) (y : S16384x64.Idx) : y ∈ oBlk cs ↔ (y 0).val / 512 = 2 * cs.2.val + cs.1.val := by
  unfold oBlk; rw [mem_oSet]; rfl

theorem oBlk_disjoint : ∀ b b' : Fin 2 × Fin 16, b ≠ b' → Disjoint (oBlk b) (oBlk b') := fun b b' hne => by
  rw [Finset.disjoint_left]; intro y hy hy'; rw [mem_oBlk] at hy hy'
  have h1 := b.1.isLt; have h2 := b'.1.isLt
  exact hne (Prod.ext (Fin.ext (by omega)) (Fin.ext (by omega)))

theorem oBlk_cover : Finset.univ.biUnion oBlk = Finset.univ := by
  ext y
  simp only [Finset.mem_biUnion, Finset.mem_univ, true_and, iff_true]
  have hy : (y 0).val < 16384 := (y 0).isLt
  exact ⟨(⟨(y 0).val / 512 % 2, Nat.mod_lt _ (by norm_num)⟩, ⟨(y 0).val / 512 / 2, by omega⟩), (mem_oBlk _ _).mpr (by show _ = 2 * ((y 0).val / 512 / 2) + (y 0).val / 512 % 2; omega)⟩

/-- The result array held whole is its 32 row blocks, one per subcore. -/
theorem oPts_blocks (d : Dev nD) (f : Buf (Elt F) (oLoc d)) :
    (oLoc d ↦{fullShare} f : sProp 𝕄)
      = bigSep Finset.univ fun c : Fin 2 => bigSep Finset.univ fun s : Fin 16 => oPart d (coordsV c s) f := by
  rw [Ring.pointsTo_blocks (ℓ := oLoc d) (q := fullShare) oBlk oBlk_disjoint oBlk_cover f, bigSep_univ_prod]
  rfl

/-! ## The index list and the table as 32 read tokens and a remainder -/

/-- An array held whole is the remainder after 32 read tokens and the tokens, numbered 16·c + s over the 2 × 16
    subcores. -/
theorem toks32 {ℓ : Loc nD τ sig} (f : Buf (Elt F) ℓ) :
    (ℓ ↦{fullShare} f : sProp 𝕄) ⊢ iprop((ℓ ↦{Transfers.shareDrop fullShare 32} f)
      ∗ bigSep Finset.univ fun c : Fin 2 => bigSep Finset.univ fun s : Fin 16 => ℓ ↦{Transfers.shareTokN fullShare (tokNo c s)} f) := by
  refine (Transfers.pointsTo_toks_split fullShare 32).trans (sep_mono_right (Entails.of_eq ?_))
  rw [bigSep_univ_equiv (finProdFinEquiv : Fin 2 × Fin 16 ≃ Fin 32), bigSep_univ_prod]
  refine bigSep_congr fun c _ => bigSep_congr fun s _ => ?_
  show (ℓ ↦{Transfers.shareTokN fullShare (finProdFinEquiv (c, s)).val} f : sProp 𝕄) = _
  rw [show (finProdFinEquiv (c, s)).val = tokNo c s from by rw [finProdFinEquiv_apply_val]; unfold tokNo; dsimp only; omega]

/-- Three families over the 2 × 16 subcores side by side are the three families apart. -/
theorem bigSep_cs_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
        ∗ (bigSep Finset.univ fun c : Fin 2 => bigSep Finset.univ fun s : Fin 16 => B c s)
        ∗ (bigSep Finset.univ fun c : Fin 2 => bigSep Finset.univ fun s : Fin 16 => C c s)) := by
  rw [show (bigSep Finset.univ fun c : Fin 2 => bigSep Finset.univ fun s : Fin 16 => iprop(A c s ∗ B c s ∗ C c s))
      = bigSep Finset.univ fun c : Fin 2 => iprop((bigSep Finset.univ fun s : Fin 16 => A c s)
          ∗ (bigSep Finset.univ fun s : Fin 16 => B c s) ∗ (bigSep Finset.univ fun s : Fin 16 => C c s))
    from bigSep_congr fun c _ => by rw [bigSep_sep', bigSep_sep'], bigSep_sep', bigSep_sep']

/-! ## The launch theorem's obligations other than the subcore's task -/

variable (m : (ℓ : Loc nD τ sig) → Buf (Elt F) ℓ) (ρ : Dev nD → PrngReg)

/-- A SparseCore is handed exactly what its sixteen subcores are, and hands back exactly what they do. -/
theorem vecSplit : (K (F := F)).VecSplit' (P m) 0 := by
  intro d c
  show (bigSep Finset.univ fun s : Fin 16 => goRes m d c s) ⊢ |={Set.univ}=> iprop(
      (bigSep Finset.univ fun s : Fin 16 => goRes m d c s)
      ∗ ((bigSep Finset.univ fun s : Fin 16 => tdRes m d c s) -∗ bigSep Finset.univ fun s : Fin 16 => tdRes m d c s))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call hands the two SparseCores: every subcore's tokens and rows. -/
theorem st0_eq (d : Dev nD) : (bigSep Finset.univ fun c : Fin ((K (F := F)).nCore 0) => (P m).st 0 d c)
    = iprop((bigSep Finset.univ fun c : Fin 2 => bigSep Finset.univ fun s : Fin 16 => aTok m d (tokNo c s))
      ∗ (bigSep Finset.univ fun c : Fin 2 => bigSep Finset.univ fun s : Fin 16 => tTok m d (tokNo c s))
      ∗ (bigSep Finset.univ fun c : Fin 2 => bigSep Finset.univ fun s : Fin 16 => oPart d (coordsV c s) (m (oLoc d)))) :=
  bigSep_cs_sep3 (fun c s => aTok m d (tokNo c s)) (fun c s => tTok m d (tokNo c s)) (fun c s => oPart d (coordsV c s) (m (oLoc d)))

/-- What it hands back: every subcore's rows, holding the lookup. -/
theorem dn0_eq (d : Dev nD) : (bigSep Finset.univ fun c : Fin ((K (F := F)).nCore 0) => (P m).dn 0 d c)
    = bigSep Finset.univ fun c : Fin 2 => bigSep Finset.univ fun s : Fin 16 => oPart d (coordsV c s) (Gout m d) := rfl

/-- What @main leaves the claim: the remainders of the index list and of the table at their launch contents, the result
    holding the lookup. -/
abbrev FIN (d : Dev nD) : sProp 𝕄 :=
  iprop((aLoc d ↦{Transfers.shareDrop fullShare 32} m (aLoc d)) ∗ (tLoc d ↦{Transfers.shareDrop fullShare 32} m (tLoc d)) ∗ oLoc d ↦{fullShare} Gout m d)

/-- @main on device d's TensorCore: the index list and the table each split into 32 read tokens and a remainder, the
    result into its 32 row blocks; the call; the row blocks, back at the lookup's values, joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  ihave Ha' := (toks32 (F := F) (m (aLoc d))) $$ Ha
  icases Ha' with ⟨Har, Hat⟩
  ihave Ht' := (toks32 (F := F) (m (tLoc d))) $$ Ht
  icases Ht' with ⟨Htr, Htt⟩
  ihave Ho' := (Entails.of_eq (oPts_blocks (F := F) d (m (oLoc d)))) $$ Ho
  iapply ((K (F := F)).wp_run (D (F := F)) 𝒱 (EH := EH) (P := P m) κ d 0) $$ [Hst Hat Htt Ho' Har Htr]
  isplitr; · iexact Hctx
  isplitl [Hst]; · iexact Hst
  isplitl [Hat Htt Ho']
  · rw [st0_eq]
    isplitl [Hat]; · iexact Hat
    isplitl [Htt]; · iexact Htt
    iexact Ho'
  iintro ⟨Hst, Hdn⟩
  ihave Hdn' := (Entails.of_eq (dn0_eq m d)) $$ Hdn
  ihave Ho := (Entails.of_eq (oPts_blocks (F := F) d (Gout m d)).symm) $$ Hdn'
  imodintro
  isplitl [Hst]; · iexact Hst
  isplitl [Har]; · iexact Har
  isplitl [Htr]; · iexact Htr
  iexact Ho

/-! ## The claim read off the final memory -/

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := Transfers.shareDrop fullShare 32) (f := m (aLoc d)))) $$ [HSI Ha]
  · isplitl [HSI] <;> iassumption
  icases H with ⟨%h1, HSI, -⟩
  ihave H := (persistent_entails_right (SI_pointsTo_agree (st := s') (ℓ := tLoc d) (I := Finset.univ) (q := Transfers.shareDrop fullShare 32) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From a proof of one subcore's task: every weakly fair execution of the device's threads terminates, the result
    holding the lookup of the launch contents, the index list and the table unchanged. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KI

end
-- ==== Proof.KI.Tile.lean ====
/-
  One vector subcore's view of the lookup: its thread, its memrefs and semaphores, its scoped storage opened, and the
  pure data the two loops speak of. Subcore s of SparseCore c handles block w = 2·s + c: index words 512·w … 512·w + 511.
  Word r of the block names a table row; the rows scratch ends with row r holding that table row.
-/
import proofs.«202693_g82240033784155_cont_sun_c4_174_23_alg».proof.Proof.KI.Common
import Idealize.ShloMosaic.Lib.SparseCore.Ops
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## One subcore's memrefs, cells and scoped storage -/

/-- The arrays and the two scratch buffers as the body table passes them. -/
abbrev aV : Memref sig .scVector .hbm S16384 .i32 := Memref.whole main_arg0_scv
abbrev tV : Memref sig .scVector .hbm S1000000x64 .f32 := Memref.whole main_arg1_scv
abbrev oV : Memref sig .scVector .hbm S16384x64 .f32 := Memref.whole main_v0_scv
abbrev sI : Memref sig .scVector .vmem S512 .i32 := Memref.whole cc0_scratch0
abbrev sR : Memref sig .scVector .vmem S512x64 .f32 := Memref.whole cc0_scratch1

section Tile

variable (d : Dev nD) (c : Fin 2) (s : Fin 16)

/-- The subcore's thread. -/
abbrev thr : Thread nD τ := V d (((coordsV c s) 0).castLE hcore0) (((coordsV c s) 1).castLE hsub0)

/-- Its three transfer semaphores: the rows', the index copy's, the write-back's. -/
abbrev cellR : GSem nD τ sig := (thr d c s, .dma cc0_scratch2.sem)
abbrev cellA : GSem nD τ sig := (thr d c s, .dma cc0_scoped0.sem)
abbrev cellB : GSem nD τ sig := (thr d c s, .dma cc0_scoped1.sem)

theorem ownSems0_V :
    (ownSems0 (thr d c s) : sProp 𝕄)
      = iprop(semVal (cellR d c s) 0 ∗ semVal (cellA d c s) 0 ∗ semVal (cellB d c s) 0
          ∗ bigSep ((((ownCells (thr d c s)).erase (cellR d c s)).erase (cellA d c s)).erase (cellB d c s)) fun g => semVal g 0) := by
  unfold SparseCore.Cfg.ownSems0
  rw [SparseCore.bigSep_erase' ((mem_ownCells (g := cellR d c s)).mpr ⟨rfl, by
      show (SemLoc.dma cc0_scratch2.sem : SemLoc sig).isScoped .scVector = true; decide⟩),
    SparseCore.bigSep_erase' (Finset.mem_erase.mpr ⟨by simp [cellR, cellA]; decide, (mem_ownCells (g := cellA d c s)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellR, cellB]; decide,
      (mem_ownCells (g := cellB d c s)).mpr ⟨rfl, by show (SemLoc.dma cc0_scoped1.sem : SemLoc sig).isScoped .scVector = true; decide⟩⟩⟩)]

/-- The two scratch buffers are among the subcore's own. -/
theorem ownBufs_V :
    (ownBufs (thr d c s) : sProp 𝕄)
      = iprop((∃ f, (thr d c s).loc cc0_scratch0 ↦{fullShare} f) ∗ (∃ f, (thr d c s).loc cc0_scratch1 ↦{fullShare} f)
          ∗ bigSep (((ownRefs (τ := τ) (.scVector (((coordsV c s) 0).castLE hcore0) (((coordsV c s) 1).castLE hsub0))).erase
                ((Proc.scVector (((coordsV c s) 0).castLE hcore0) (((coordsV c s) 1).castLE hsub0)).devRef cc0_scratch0)).erase
              ((Proc.scVector (((coordsV c s) 0).castLE hcore0) (((coordsV c s) 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (((coordsV c s) 0).castLE hcore0) (((coordsV c s) 1).castLE hsub0))
    (b := (Proc.scVector (((coordsV c s) 0).castLE hcore0) (((coordsV c s) 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (((coordsV c s) 0).castLE hcore0) (((coordsV c s) 1).castLE hsub0))
      (b := (Proc.scVector (((coordsV c s) 0).castLE hcore0) (((coordsV c s) 1).castLE hsub0)).devRef cc0_scratch1) rfl⟩)]

/-- The arrays and scratch buffers as the subcore's memrefs address them are the device's arrays and its own buffers. -/
theorem pts_a (q : PosShare TreeShare) (f : Buf (Elt F) (aLoc d)) :
    ((aV).view.loc (thr d c s) ↦{q} f : sProp 𝕄) = aLoc d ↦{q} f := by
  simp only [Memref.view_whole, View.set_whole]
theorem pts_t (q : PosShare TreeShare) (f : Buf (Elt F) (tLoc d)) :
    ((tV).view.loc (thr d c s) ↦{q} f : sProp 𝕄) = tLoc d ↦{q} f := by
  simp only [Memref.view_whole, View.set_whole]
theorem pts_o (f : Buf (Elt F) (oLoc d)) :
    ((oRows (coordsV c s)).view.loc (thr d c s) ↦[(oRows (coordsV c s)).view.set]{fullShare} f : sProp 𝕄) = oPart d (coordsV c s) f := rfl
theorem pts_sI (f : Buf (Elt F) ((thr d c s).loc cc0_scratch0)) :
    ((sI).view.loc (thr d c s) ↦{fullShare} f : sProp 𝕄) = (thr d c s).loc cc0_scratch0 ↦{fullShare} f := rfl
theorem pts_sR (f : Buf (Elt F) ((thr d c s).loc cc0_scratch1)) :
    ((sR).view.loc (thr d c s) ↦{fullShare} f : sProp 𝕄) = (thr d c s).loc cc0_scratch1 ↦{fullShare} f := rfl

/-! ## The rows' transfers -/

theorem ht1 : k0_t1_loop.trips = 512 := by decide
theorem ht2 : k0_t2_loop.trips = 512 := by decide

/-- Row r of the rows scratch, as the issue loop slices it. -/
def rowM (r : Fin k0_t1_loop.trips) : Memref sig .scVector .vmem S64 .f32 :=
  ((sR).slice (Rect.unit (s := S512x64) (k0_off5 r) S1x64.size (k0_off5_inb r)) (fun _ => rfl)).squeeze S64 squeezes_S1x64_S64

/-- Row 0 of it, as the drain loop names the waits' destination. -/
def rowM0 : Memref sig .scVector .vmem S64 .f32 :=
  ((sR).slice (Rect.unit (s := S512x64) ![0, 0] S1x64.size inb_S512x64_S1x64_0_0) (fun _ => rfl)).squeeze S64 squeezes_S1x64_S64

/-- The table row an index word names, as the issue loop slices it. -/
def srcM (w : BitVec 32) (h : k0_chk1 w) : Memref sig .scVector .hbm S64 .f32 :=
  (((tV).reshape S125000x8x64 reshapes_S1000000x64_S125000x8x64.1 reshapes_S1000000x64_S125000x8x64.2 (Memref.isWhole_whole _).contiguous).slice
    (Rect.unit (s := S125000x8x64) (k0_off4 w) S1x1x64.size (k0_off4_inb w h)) (fun _ => rfl)).squeeze S64 squeezes_S1x1x64_S64

/-- One row's credit on the rows' semaphore. -/
abbrev NN : ℕ := (rowM0).view.dmaCredit

variable [FloatOps F]

/-! ## The block's words and the rows' final contents -/

open Idealize.ShloMosaic.ValueIdx in
/-- The index word number r of the subcore's block: entry 512·(2s + c) + r of the index list. -/
def wordAt (r : Fin 512) : BitVec 32 :=
  m (aLoc d) (ix1 ⟨512 * (2 * s.val + c.val) + r.val, by have := s.isLt; have := c.isLt; have := r.isLt; omega⟩)

open Idealize.ShloMosaic.ValueIdx in
/-- The rows scratch once every row has landed: row r holds the table row that word r names. -/
def Rfin : Buf (Elt F) ((thr d c s).loc cc0_scratch1) :=
  show S512x64.Idx → Elt F .f32 from
  fun y => m (tLoc d) (ix2 (Cert.Lookup.rowOf (wordAt m d c s ⟨(y 0).val, idx2_lt0 y⟩)) ⟨(y 1).val, idx2_lt1 y⟩)

end Tile

end Cert.Proof.KI

end
-- ==== Proof.KI.Values.lean ====
/-
  The pure value facts one subcore's task rests on: an index word that names a table row passes the kernel's range check;
  the word a trip loads is the index scratch's word of that number; each copy, once landed, leaves the expected
  contents — the index scratch holds the subcore's block of the index list, row k of the rows scratch holds the table
  row that word k names, the subcore's result rows hold the lookup —; and the rows scratch is the disjoint union of
  its 512 rows.
-/
import proofs.«202693_g82240033784155_cont_sun_c4_174_23_alg».proof.Proof.KI.Tile
import proofs.«202693_g82240033784155_cont_sun_c4_174_23_alg».proof.Proof.KI.Launch
import proofs.«202693_g82240033784155_cont_sun_c4_174_23_alg».proof.Proof.Gen.KernelIdeal.Skeleton
import Idealize.ShloMosaic.Lib.ValueIdx
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## An index word's table row, as the kernel computes its place -/

/-- For a word below 2^31 the arithmetic shift right by 3 is division by 8; -/
theorem shrsi3_toNat (w : BitVec 32) (h : w.toNat ≤ 999999) : (Scalar.shrsi w 3#32).toNat = w.toNat / 8 := by
  have hm : w.msb = false := by rw [BitVec.msb_eq_false_iff_two_mul_lt]; omega
  show (IntOp.shrsi .scalar w 3#32).toNat = _
  unfold IntOp.shrsi
  rw [if_pos (by decide), BitVec.sshiftRight_eq', BitVec.toNat_sshiftRight_of_msb_false hm, Nat.shiftRight_eq_div_pow]
  rfl

/-- and the mask with 7 is the remainder modulo 8. -/
theorem andi7_toNat (w : BitVec 32) : (Scalar.andi w 7#32).toNat = w.toNat % 8 := by
  show (w &&& 7#32).toNat = _
  rw [BitVec.toNat_and]
  exact Nat.and_two_pow_sub_one_eq_mod w.toNat 3

/-- The place of the table row a word names, in the table seen as 125000 groups of 8 rows. -/
theorem k0_off4_eq (w : BitVec 32) (h : w.toNat ≤ 999999) : k0_off4 w = ![w.toNat / 8, w.toNat % 8, 0] := by
  unfold k0_off4
  simp only [shrsi3_toNat w h, andi7_toNat w]

section Tile

variable (d : Dev nD) (c : Fin 2) (s : Fin 16)

variable [FloatOps F]

/-- A word that names a table row passes the kernel's range check. -/
theorem chk_of_le (w : BitVec 32) (h : w.toNat ≤ 999999) : k0_chk1 w := by
  unfold k0_chk1
  rw [k0_off4_eq w h]
  intro a; fin_cases a
  · show w.toNat / 8 + 1 ≤ 125000; omega
  · show w.toNat % 8 + 1 ≤ 8; omega
  · show 0 + 64 ≤ 64; omega

/-- The word the issue loop's trip k loads from the index scratch is the scratch's word number k. -/
theorem loaded_word (g0 : S512.Idx → BitVec 32) (k : Fin k0_t1_loop.trips) :
    extractAt ![0] (k0_pay1 (F := F) (View.readAt (Elt F) (sI).view (Rect.unit (s := S512) (k0_off2 k) S1.size (k0_off2_inb k)).toLoadRect g0)) inpos_S1_p0
      = g0 (ix1 ⟨k.val, ht1 ▸ k.isLt⟩) := by
  unfold k0_pay1
  rw [shapeCast_self]
  show g0 _ = g0 _
  congr 1
  funext a
  apply Fin.ext
  match a with
  | ⟨0, _⟩ =>
    show (k0_off2 k) 0 + 1 * 0 = k.val
    rw [k0_off2_eq]; rfl

/-! ## The rows scratch as its 512 rows -/

/-- Row k of the rows scratch, as the issue loop slices it, is a unit rectangle of the scratch. -/
theorem rowM_set_eq (k : Fin k0_t1_loop.trips) :
    (rowM k).view.set = (Rect.unit (s := S512x64) (k0_off5 k) S1x64.size (k0_off5_inb k)).set := by
  unfold rowM
  exact (View.set_reshape _ _).trans (View.set_slice_whole (cc0_scratch1 : Ref sig .scVector) _)

/-- Its elements are the scratch's elements (k, j). -/
theorem mem_rowM (k : Fin k0_t1_loop.trips) (y : S512x64.Idx) : y ∈ (rowM k).view.set ↔ (y 0).val = k.val := by
  have H : y ∈ (Rect.unit (s := S512x64) (k0_off5 k) S1x64.size (k0_off5_inb k)).set ↔ (y 0).val = k.val := by
    rw [Rect.mem_set_unit, k0_off5_eq]
    have h1 : (y 1).val < 64 := (y 1).isLt
    constructor
    · intro H
      have a0 : k.val ≤ (y 0).val ∧ (y 0).val < k.val + 1 := H 0
      omega
    · intro H a; fin_cases a
      · show k.val ≤ (y 0).val ∧ (y 0).val < k.val + 1
        omega
      · show 0 ≤ (y 1).val ∧ (y 1).val < 0 + 64
        omega
  exact (Finset.ext_iff.mp (rowM_set_eq k) y).trans H

/-- The rows, numbered 0 … 511. -/
def rowSetT (t : Fin 512) : Finset S512x64.Idx := (rowM (Fin.cast ht1.symm t)).view.set

theorem mem_rowSetT (t : Fin 512) (y : S512x64.Idx) : y ∈ rowSetT t ↔ (y 0).val = t.val := by
  unfold rowSetT; exact mem_rowM _ y

theorem rowSetT_disjoint : ∀ t t' : Fin 512, t ≠ t' → Disjoint (rowSetT t) (rowSetT t') := fun t t' hne => by
  rw [Finset.disjoint_left]; intro y hy hy'; rw [mem_rowSetT] at hy hy'; exact hne (Fin.ext (by omega))

theorem rowSetT_cover : Finset.univ.biUnion rowSetT = Finset.univ := by
  ext y
  simp only [Finset.mem_biUnion, Finset.mem_univ, true_and, iff_true]
  exact ⟨⟨(y 0).val, idx2_lt0 y⟩, (mem_rowSetT _ _).mpr rfl⟩

/-! ## What the copies leave -/

/-- The index scratch after the subcore's block of the index list has landed: word r is the block's word r. -/
theorem idx_landed (f0 : Buf (Elt F) ((thr d c s).loc cc0_scratch0)) (r : Fin 512) :
    View.write (Elt F) (sI).view f0 (ReadAs.same.apply (View.read (Elt F) ((aV).slice (Rect.unit (s := S16384) (k0_off1 (coordsV c s)) S512.size (k0_off1_inb (coordsV c s))) (fun _ => rfl)).view (m (aLoc d)))) Finset.univ (ix1 r) = wordAt m d c s r := by
  refine (congrFun (View.write_whole_univ (Val := Elt F) (cc0_scratch0 : Ref sig .scVector) f0 _) (ix1 r)).trans ?_
  unfold wordAt
  show m (aLoc d) _ = m (aLoc d) _
  congr 1
  funext a
  apply Fin.ext
  match a with
  | ⟨0, _⟩ =>
    show (k0_off1 (coordsV c s)) 0 + 1 * r.val = 512 * (2 * s.val + c.val) + r.val
    rw [k0_off1_eq]
    show 1024 * s.val + 512 * c.val + 1 * r.val = _
    omega

/-- Where entry j of row k of the rows scratch sits in the scratch: at (k, j). -/
theorem rowM_emb (k : Fin k0_t1_loop.trips) (x : S64.Idx) :
    ((rowM k).view.emb x : S512x64.Idx) = ix2 (⟨k.val, ht1 ▸ k.isLt⟩ : Fin 512) (⟨(x 0).val, (x 0).isLt⟩ : Fin 64) := by
  unfold rowM
  show (Rect.unit (s := S512x64) (k0_off5 k) S1x64.size (k0_off5_inb k)).emb (Shape.reshapeEquiv _ x) = _
  have hy : Shape.reshapeEquiv (s := (Rect.unit (s := S512x64) (k0_off5 k) S1x64.size (k0_off5_inb k)).shape) (s' := S64) squeezes_S1x64_S64.numel_eq x
      = (ix2 (0 : Fin 1) (x 0)) :=
    Shape.reshapeEquiv_eq_of_rowMajor _ (by
      show ((⟨2, ![1, 64]⟩ : Shape).rowMajor (ix2 (0 : Fin 1) (x 0))).val = ((⟨1, ![64]⟩ : Shape).rowMajor x).val
      rw [Shape.rowMajor_val_two, Shape.rowMajor_val_one]
      show 0 * 64 + (x 0).val = (x 0).val
      omega)
  rw [hy]
  funext a
  apply Fin.ext
  match a with
  | ⟨0, _⟩ =>
    show (k0_off5 k) 0 + 1 * 0 = k.val
    rw [k0_off5_eq]; rfl
  | ⟨1, _⟩ =>
    show (k0_off5 k) 1 + 1 * (x 0).val = (x 0).val
    rw [k0_off5_eq]
    show 0 + 1 * (x 0).val = (x 0).val
    omega

/-- Where entry j of the table row a word names sits in the table: the table seen as 125000 groups of 8 rows, at group
    w / 8, row w % 8 of the group, is the table's row (w / 8)·8 + w % 8 = w. -/
theorem srcM_emb (w : BitVec 32) (hchk : k0_chk1 w) (hle : w.toNat ≤ 999999) (x : S64.Idx) :
    ((srcM w hchk).view.emb x : S1000000x64.Idx) = ix2 (⟨w.toNat, by omega⟩ : Fin 1000000) (⟨(x 0).val, (x 0).isLt⟩ : Fin 64) := by
  unfold srcM
  show Shape.reshapeEquiv _ ((Rect.unit (s := S125000x8x64) (k0_off4 w) S1x1x64.size (k0_off4_inb w hchk)).emb (Shape.reshapeEquiv _ x)) = _
  have hy : Shape.reshapeEquiv (s := (Rect.unit (s := S125000x8x64) (k0_off4 w) S1x1x64.size (k0_off4_inb w hchk)).shape) (s' := S64) squeezes_S1x1x64_S64.numel_eq x
      = (ix3 (0 : Fin 1) (0 : Fin 1) (x 0)) :=
    Shape.reshapeEquiv_eq_of_rowMajor _ (by
      show ((⟨3, ![1, 1, 64]⟩ : Shape).rowMajor (ix3 (0 : Fin 1) (0 : Fin 1) (x 0))).val = ((⟨1, ![64]⟩ : Shape).rowMajor x).val
      rw [Shape.rowMajor_val_three, Shape.rowMajor_val_one]
      show (0 * 1 + 0) * 64 + (x 0).val = (x 0).val
      omega)
  rw [hy]
  refine Shape.reshapeEquiv_eq_of_rowMajor _ ?_
  show ((⟨2, ![1000000, 64]⟩ : Shape).rowMajor (ix2 (⟨w.toNat, by omega⟩ : Fin 1000000) (⟨(x 0).val, (x 0).isLt⟩ : Fin 64))).val
    = ((⟨3, ![125000, 8, 64]⟩ : Shape).rowMajor ((Rect.unit (s := S125000x8x64) (k0_off4 w) S1x1x64.size (k0_off4_inb w hchk)).emb (ix3 (0 : Fin 1) (0 : Fin 1) (x 0)))).val
  rw [Shape.rowMajor_val_two, Shape.rowMajor_val_three]
  show w.toNat * 64 + (x 0).val
    = (((k0_off4 w) 0 + 1 * 0) * 8 + ((k0_off4 w) 1 + 1 * 0)) * 64 + ((k0_off4 w) 2 + 1 * (x 0).val)
  rw [k0_off4_eq w hle]
  show w.toNat * 64 + (x 0).val = ((w.toNat / 8 + 1 * 0) * 8 + (w.toNat % 8 + 1 * 0)) * 64 + (0 + 1 * (x 0).val)
  omega

/-- Row k of the rows scratch after the table row its word names has landed: entry (k, j) is the table's entry
    (row of word k, j). -/
theorem row_landed (k : Fin k0_t1_loop.trips) (w : BitVec 32) (hchk : k0_chk1 w) (hle : w.toNat ≤ 999999) (hw : w = wordAt m d c s ⟨k.val, ht1 ▸ k.isLt⟩) (fd : Buf (Elt F) ((rowM k).view.loc (thr d c s))) :
    ∀ y ∈ (rowM k).view.set, View.write (Elt F) (rowM k).view fd (ReadAs.same.apply (View.read (Elt F) (srcM w hchk).view (m (tLoc d)))) Finset.univ y = Rfin m d c s y := by
  intro y hy
  obtain ⟨x, rfl⟩ := View.exists_emb_of_mem_set _ hy
  rw [View.write_emb_of_mem _ _ (Finset.mem_univ x)]
  refine (cast_eq _ _).trans ?_
  show _root_.cast _ (m (tLoc d) ((srcM w hchk).view.emb x)) = _
  refine (cast_eq _ _).trans ?_
  refine (congrArg (m (tLoc d)) (srcM_emb w hchk hle x)).trans ?_
  refine Eq.trans ?_ (congrArg (Rfin m d c s) (rowM_emb k x)).symm
  unfold Rfin
  show m (tLoc d) _ = m (tLoc d) (ix2 (Cert.Lookup.rowOf (wordAt m d c s ⟨k.val, ht1 ▸ k.isLt⟩)) (⟨(x 0).val, (x 0).isLt⟩ : Fin 64))
  rw [← hw]
  congr 1
  funext a
  apply Fin.ext
  match a with
  | ⟨0, _⟩ => exact (Cert.Lookup.rowOf_val w hle).symm
  | ⟨1, _⟩ => rfl

end Tile

end Cert.Proof.KI

end
-- ==== Proof.KI.ValuesOut.lean ====
/-
  The write-back read at an index. A subcore's result rows are a block of 512 consecutive rows of the result array: an
  element y of the block is the image of a scratch index (r, j), with row 512·(2s + c) + r and column j. Writing the rows
  scratch's final contents through the block puts the scratch's entry (r, j) at y; that entry is the table's entry
  (row of word r of the block, j), and word r of the block is the index word number 512·(2s + c) + r, so the value at y
  is the lookup's.
-/
import proofs.«202693_g82240033784155_cont_sun_c4_174_23_alg».proof.Proof.KI.Tile
import proofs.«202693_g82240033784155_cont_sun_c4_174_23_alg».proof.Proof.KI.Launch
import Idealize.ShloMosaic.Lib.ValueIdx
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

section Tile

variable (d : Dev nD) (c : Fin 2) (s : Fin 16) [FloatOps F]

/-- The rows scratch's final entry at (r, j) is the lookup's value at any result index whose row is 512·(2s + c) + r
    and whose column is j. -/
theorem Rfin_eq_Gout (x : S512x64.Idx) (e : S16384x64.Idx)
    (h0 : (e 0).val = 512 * (2 * s.val + c.val) + (x 0).val) (h1 : (e 1).val = (x 1).val) :
    (Rfin m d c s : S512x64.Idx → Elt F .f32) x = (Gout m d : S16384x64.Idx → Elt F .f32) e := by
  have ea : (⟨512 * (2 * s.val + c.val) + (x 0).val, by have := s.isLt; have := c.isLt; have := idx2_lt0 x; omega⟩ : Fin 16384)
      = ⟨(e 0).val, idx2_lt0 e⟩ := Fin.ext h0.symm
  have eb : (⟨(x 1).val, idx2_lt1 x⟩ : Fin 64) = ⟨(e 1).val, idx2_lt1 e⟩ := Fin.ext h1.symm
  show m (tLoc d) (ix2 (Cert.Lookup.rowOf (m (aLoc d) (ix1 ⟨512 * (2 * s.val + c.val) + (x 0).val, _⟩))) ⟨(x 1).val, _⟩)
    = m (tLoc d) (ix2 (Cert.Lookup.rowOf (m (aLoc d) (ix1 ⟨(e 0).val, _⟩))) ⟨(e 1).val, _⟩)
  rw [ea, eb]

/-- The subcore's row block places scratch index (r, j) at row 512·(2s + c) + r … -/
theorem oRows_emb_row (x : S512x64.Idx) :
    (((Rect.unit (s := S16384x64) (k0_off6 (coordsV c s)) S512x64.size (k0_off6_inb (coordsV c s))).emb x) 0).val
      = 512 * (2 * s.val + c.val) + (x 0).val := by
  have e : (((Rect.unit (s := S16384x64) (k0_off6 (coordsV c s)) S512x64.size (k0_off6_inb (coordsV c s))).emb x) 0).val
      = k0_off6 (coordsV c s) 0 + 1 * (x 0).val := rfl
  rw [e, k0_off6_eq]
  show 1024 * s.val + 512 * c.val + 1 * (x 0).val = _
  omega

/-- … and column j. -/
theorem oRows_emb_col (x : S512x64.Idx) :
    (((Rect.unit (s := S16384x64) (k0_off6 (coordsV c s)) S512x64.size (k0_off6_inb (coordsV c s))).emb x) 1).val = (x 1).val := by
  have e : (((Rect.unit (s := S16384x64) (k0_off6 (coordsV c s)) S512x64.size (k0_off6_inb (coordsV c s))).emb x) 1).val
      = k0_off6 (coordsV c s) 1 + 1 * (x 1).val := rfl
  rw [e, k0_off6_eq]
  show 0 + 1 * (x 1).val = _
  omega

/-- The write-back lands the lookup: the rows scratch's final contents written through the subcore's row block leave,
    at every element of the block, the lookup's value there. -/
theorem out_landed (fo : Buf (Elt F) ((oRows (coordsV c s)).view.loc (thr d c s))) :
    ∀ y ∈ (oRows (coordsV c s)).view.set, View.write (Elt F) (oRows (coordsV c s)).view fo (ReadAs.same.apply (View.read (Elt F) (sR).view (Rfin m d c s))) Finset.univ y = Gout m d y := by
  intro y hy
  obtain ⟨x, rfl⟩ := View.exists_emb_of_mem_set _ hy
  rw [View.write_emb_of_mem _ _ (Finset.mem_univ x)]
  exact Rfin_eq_Gout m d c s x _ (oRows_emb_row c s x) (oRows_emb_col c s x)

end Tile

end Cert.Proof.KI

end
-- ==== Proof.KI.Body.lean ====
/-
  One vector subcore's task of the lookup kernel, proved once for every subcore.

  The body: (1) the subcore's 512 index words are copied to the index scratch and waited for; (2) for r = 0 … 511 word r
  is read, checked to name a table row (it does: the precondition bounds every index word by 999999), and a transfer of
  that table row into row r of the rows scratch is issued — all 512 on ONE semaphore; (3) 512 waits, each for one row's
  units, drain them: only the last wait knows that every row has landed, and it hands all 512 rows back at once;
  (4) the rows scratch is copied to the subcore's 512 result rows and waited for.
  The 512 transfers in flight are a counted batch on the semaphore; each reads the table under a read token of its own
  (two words may name the same row) and writes a row of the scratch nothing else touches. Afterwards row r of the
  scratch is the table row word r names, so result row 512·(2s + c) + r is the lookup's.
-/
import proofs.«202693_g82240033784155_cont_sun_c4_174_23_alg».proof.Proof.KI.Common
import proofs.«202693_g82240033784155_cont_sun_c4_174_23_alg».proof.Proof.Gen.KernelIdeal.Skeleton
import Idealize.ShloMosaic.Lib.SparseCore.Ops
import proofs.«202693_g82240033784155_cont_sun_c4_174_23_alg».proof.Proof.KI.Tile
import proofs.«202693_g82240033784155_cont_sun_c4_174_23_alg».proof.Proof.KI.Values
import proofs.«202693_g82240033784155_cont_sun_c4_174_23_alg».proof.Proof.KI.ValuesOut
import Idealize.ShloMosaic.Lib.Exec.Geometry

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (c : Fin 2) (s : Fin 16) [FloatOps F]

open Idealize.ShloMosaic.ValueIdx

/-! ## What the loops hold -/

/-- A row of the rows scratch held outright at contents f. -/
def rowPiece (r : Fin 512) (f : Buf (Elt F) ((thr d c s).loc cc0_scratch1)) : sProp 𝕄 :=
  (rowM (Fin.cast ht1.symm r)).view.loc (thr d c s) ↦[(rowM (Fin.cast ht1.symm r)).view.set]{fullShare} f

/-- The table under the r-th read token of the subcore's token. -/
def tabTok (r : ℕ) : sProp 𝕄 :=
  (tV).view.loc (thr d c s) ↦{Transfers.shareTokN (Transfers.shareTokN fullShare (tokNo c s)) r} m (tLoc d)

/-- What transfer t delivers: row t at its final contents. -/
def rowD (t : Fin 512) : sProp 𝕄 := rowPiece d c s t (Rfin m d c s)

instance rowD_storable (t : Fin 512) : BI.Storable (upEmb : UEmb _ 𝕄) (rowD m d c s t) := by
  unfold rowD rowPiece
  exact inferInstanceAs (BI.Storable (upEmb : UEmb _ 𝕄) ((View.loc (thr d c s) (rowM (Fin.cast ht1.symm t)).view) ↦[(rowM (Fin.cast ht1.symm t)).view.set]{fullShare}
    (show Buf (Elt F) (View.loc (thr d c s) (rowM (Fin.cast ht1.symm t)).view) from Rfin m d c s)))

/-- The batch of 512 row transfers: j issued, u units consumed. -/
abbrev batch (j u : ℕ) : sProp 𝕄 :=
  Transfers.Batch (countersEmb (U := UU)) (thr d c s) (.dma cc0_scratch2.sem) (none : HIx 1) NN (rowD m d c s) j u

/-- The rows scratch held whole is its 512 rows held one by one. -/
theorem rows_split (f : Buf (Elt F) ((thr d c s).loc cc0_scratch1)) :
    ((sR).view.loc (thr d c s) ↦{fullShare} f : sProp 𝕄) = bigSep Finset.univ (fun t => rowPiece d c s t f) :=
  Ring.pointsTo_blocks (ℓ := (sR).view.loc (thr d c s)) (q := fullShare) rowSetT rowSetT_disjoint rowSetT_cover f

/-- Every word of the block names a table row. -/
theorem word_le (hpre : PreOK m) (r : Fin 512) : (wordAt m d c s r).toNat ≤ 999999 := hpre d _

/-- The word the issue loop reads at trip k is word k of the block, and passes the kernel's range check. -/
theorem word_eq (g0 : S512.Idx → BitVec 32) (hg0 : ∀ r : Fin 512, g0 (ix1 r) = wordAt m d c s r) (k : Fin k0_t1_loop.trips) :
    extractAt ![0] (k0_pay1 (F := F) (View.readAt (Elt F) (sI).view (Rect.unit (s := S512) (k0_off2 k) S1.size (k0_off2_inb k)).toLoadRect g0)) inpos_S1_p0
      = wordAt m d c s ⟨k.val, ht1 ▸ k.isLt⟩ := by
  rw [loaded_word (F := F)]; exact hg0 _
theorem word_chk (hpre : PreOK m) (g0 : S512.Idx → BitVec 32) (hg0 : ∀ r : Fin 512, g0 (ix1 r) = wordAt m d c s r) (k : Fin k0_t1_loop.trips) :
    k0_chk1 (extractAt ![0] (k0_pay1 (F := F) (View.readAt (Elt F) (sI).view (Rect.unit (s := S512) (k0_off2 k) S1.size (k0_off2_inb k)).toLoadRect g0)) inpos_S1_p0) :=
  chk_of_le _ (by rw [word_eq m d c s g0 hg0 k]; exact word_le m d c s hpre _)

/-- Before trip k of the issue loop: k rows issued; the index scratch holding the block's words; the rows and the
    table tokens from k on still in hand. -/
def inv1 (f1 : Buf (Elt F) ((thr d c s).loc cc0_scratch1)) (k : ℕ) (_ : Unit) : sProp 𝕄 :=
  iprop(batch m d c s k 0
    ∗ (∃ g0 : S512.Idx → BitVec 32, ⌜∀ r : Fin 512, g0 (ix1 r) = wordAt m d c s r⌝ ∗ (sI).view.loc (thr d c s) ↦{fullShare} g0)
    ∗ bigSep (Ring.rangeSet 512 k 512) (fun r => rowPiece d c s r f1)
    ∗ bigSep (Ring.rangeSet 512 k 512) (fun r => tabTok m d c s r.val))

/-- One trip of the issue loop: word k read and checked, row k's elements of the table lent under token k, row k of the
    scratch lent, the transfer issued as the batch's k-th. -/
theorem issue_step (hpre : PreOK m) (f1 : Buf (Elt F) ((thr d c s).loc cc0_scratch1)) (k : Fin k0_t1_loop.trips) (acc : Unit) :
    inv1 m d c s f1 k.val acc ⊢ wp frame (wpE (defs₀ (F := F)) 𝒱₀ (thr d c s) none) Set.univ
      (k0_t1_body (coordsV c s) tV (Memref.isWhole_whole _) aV (Memref.isWhole_whole _) oV (Memref.isWhole_whole _)
            sI (Memref.isWhole_whole _) sR (Memref.isWhole_whole _) cc0_scratch2 cc0_scoped0 cc0_scoped1 k acc)
      (inv1 m d c s f1 (k.val + 1)) := by
  have hk : k.val < 512 := ht1 ▸ k.isLt
  unfold inv1
  rw [Ring.bigSep_rangeSet_head (Φ := fun r => rowPiece d c s r f1) hk hk,
    Ring.bigSep_rangeSet_head (Φ := fun r => tabTok m d c s r.val) hk hk]
  unfold tabTok rowPiece
  iintro ⟨HB, ⟨%g0, %hg0, Hs0⟩, ⟨Hrow, Hrows⟩, ⟨Htok, Htoks⟩⟩
  have HC := word_chk m d c s hpre g0 hg0 k
  have HE := word_eq m d c s g0 hg0 k
  unfold k0_t1_body
  sl_exec (disch := exact word_chk m d c s hpre g0 hg0 k)
  -- the row's elements of the table under token k; the rest of the token is not needed again
  ihave Htok' := (pointsTo_split_subset (ℓ := (tV).view.loc (thr d c s)) (I := (srcM _ HC).view.set) (S := Finset.univ) (Finset.subset_univ _)).1 $$ Htok
  icases Htok' with ⟨Hsrc, -⟩
  iapply (Transfers.wp_dmaBatch (countersEmb (U := UU)) 𝒱₀ (thr d c s) none (src := srcM _ HC) (dst := rowM k) (fs := m (tLoc d)) (fd := f1)
      (none : HIx 1) NN rfl subset_rfl (D := rowD m d c s) (j := k.val) (u := 0) hk (Nat.zero_le _) ?hD) $$ [Hsrc Hrow HB]
  case hD =>
    refine sep_elim_left.trans (Entails.of_eq ?_)
    unfold rowD rowPiece
    exact pointsTo_congr (row_landed m d c s k _ HC (by rw [HE]; exact word_le m d c s hpre _) HE f1)
  · isplitl [Hsrc]; · iexact Hsrc
    isplitl [Hrow]; · iexact Hrow
    iexact HB
  iintro HB
  sl_step
  isplitl [HB]; · iexact HB
  isplitl [Hs0]
  · iexists g0; isplitr
    · ipureintro; exact hg0
    · iexact Hs0
  isplitl [Hrows]; · iexact Hrows
  iexact Htoks

/-! ## The drain loop -/

theorem NN_pos : 0 < NN := by decide

/-- Before trip k of the drain loop: k waits made and recorded; while a wait is still to come, the batch with k rows'
    units consumed; after the last, the semaphore at zero and every row delivered. -/
def inv2 (O : CellTallies nD τ sig (HIx 1)) (W : Waits sig (HIx 1)) (k : ℕ) (_ : Unit) : sProp 𝕄 :=
  iprop(⌜k ≤ 512⌝ ∗ levAts (K (F := F)).L (K (F := F)).lev
    ∗ (∃ W', ⌜∀ p ∈ W', p ∈ W ∨ p.2 = none⌝ ∗ owes (thr d c s) O W')
    ∗ (if k < 512 then batch m d c s 512 (k * NN)
       else iprop(semVal (cellR d c s) 0 ∗ bigSep Finset.univ (rowD m d c s))))

/-- One trip of the drain loop: a wait for one row's units; the last of them hands every row back. -/
theorem drain_step (O : CellTallies nD τ sig (HIx 1)) (W : Waits sig (HIx 1)) (hO : ∀ g, O g none = 0)
    (k : Fin k0_t2_loop.trips) (acc : Unit) :
    inv2 m d c s O W k.val acc ⊢ wp frame (wpE (defs₀ (F := F)) 𝒱₀ (thr d c s) none) Set.univ
      (k0_t2_body (coordsV c s) tV (Memref.isWhole_whole _) aV (Memref.isWhole_whole _) oV (Memref.isWhole_whole _)
            sI (Memref.isWhole_whole _) sR (Memref.isWhole_whole _) cc0_scratch2 cc0_scoped0 cc0_scoped1 k acc)
      (inv2 m d c s O W (k.val + 1)) := by
  have hk : k.val < 512 := ht2 ▸ k.isLt
  unfold inv2
  simp only [if_pos hk]
  rcases Nat.lt_or_ge (k.val + 1) 512 with h1 | h1
  · simp only [if_pos h1]
    iintro ⟨-, #Hlv, ⟨%W', %hW', HO⟩, HB⟩
    unfold k0_t2_body
    simp only [Prog.lift, Prog.bind_op, Prog.bind_ret, Prog.pure_eq_ret]
    iapply (Transfers.wp_waitBatchO (countersEmb (U := UU)) 𝒱₀ (thr d c s) none (none : HIx 1) (N := NN) rfl (D := rowD m d c s) (u := k.val * NN)
      (by calc k.val * NN + NN = (k.val + 1) * NN := by ring
            _ < 512 * NN := Nat.mul_lt_mul_of_pos_right h1 NN_pos
            _ = NN * 512 := Nat.mul_comm _ _)) $$ [HB HO]
    · isplitl [HB]; · iexact HB
      isplitl [HO]; · iexact HO
      iapply ((K (F := F)).mayWait_none (SemLoc.dma cc0_scratch2.sem) hO); iexact Hlv
    iintro ⟨HB, HO⟩
    rw [wp_ret]; imodintro
    isplitr; · ipureintro; omega
    isplitr; · iexact Hlv
    isplitl [HO]
    · iexists _; isplitr
      rotate_left
      · iexact HO
      · ipureintro; intro p hp
        rcases Finset.mem_insert.mp hp with rfl | hp
        · exact .inr rfl
        · exact hW' p hp
    rw [show (k.val + 1) * NN = k.val * NN + NN by ring]; iexact HB
  · simp only [if_neg (Nat.not_lt.mpr h1)]
    iintro ⟨-, #Hlv, ⟨%W', %hW', HO⟩, HB⟩
    unfold k0_t2_body
    simp only [Prog.lift, Prog.bind_op, Prog.bind_ret, Prog.pure_eq_ret]
    iapply (Transfers.wp_waitBatchLastO (countersEmb (U := UU)) 𝒱₀ (thr d c s) none (none : HIx 1) (N := NN) rfl NN_pos (D := rowD m d c s) (u := k.val * NN)
      (by have : k.val + 1 = 512 := by omega
          calc k.val * NN + NN = (k.val + 1) * NN := by ring
            _ = NN * 512 := by rw [this, Nat.mul_comm])) $$ [HB HO]
    · isplitl [HB]; · iexact HB
      isplitl [HO]; · iexact HO
      iapply ((K (F := F)).mayWait_none (SemLoc.dma cc0_scratch2.sem) hO); iexact Hlv
    iintro ⟨Hall, Hsem, HO⟩
    rw [wp_ret]; imodintro
    isplitr; · ipureintro; omega
    isplitr; · iexact Hlv
    isplitl [HO]
    · iexists _; isplitr
      rotate_left
      · iexact HO
      · ipureintro; intro p hp
        rcases Finset.mem_insert.mp hp with rfl | hp
        · exact .inr rfl
        · exact hW' p hp
    isplitl [Hsem]; · iexact Hsem
    iexact Hall

/-! ## The whole task -/

/-- The rows scratch held whole is its rows from 0 on. -/
theorem rows_range (f : Buf (Elt F) ((thr d c s).loc cc0_scratch1)) :
    ((sR).view.loc (thr d c s) ↦{fullShare} f : sProp 𝕄) = bigSep (Ring.rangeSet 512 0 512) (fun t => rowPiece d c s t f) := by
  rw [Ring.rangeSet_univ]; exact rows_split d c s f

/-- Every row delivered is the rows scratch whole at its final contents. -/
theorem rows_join :
    (bigSep Finset.univ (rowD m d c s) : sProp 𝕄) = ((sR).view.loc (thr d c s) ↦{fullShare} Rfin m d c s) := by
  show bigSep Finset.univ (fun t => rowPiece d c s t (Rfin m d c s)) = _
  exact (rows_split d c s _).symm

/-- The 512 tokens by number are the tokens of the rows from 0 on. -/
theorem toks_range :
    (bigSep (Finset.range 512) fun i => ((tV).view.loc (thr d c s) ↦{Transfers.shareTokN (Transfers.shareTokN fullShare (tokNo c s)) i} m (tLoc d) : sProp 𝕄))
      = bigSep (Ring.rangeSet 512 0 512) (fun t => tabTok m d c s t.val) :=
  (Ring.bigSep_rangeSet_eq_range (NB := 512) (lo := 0) (hi := 512) (Φ := fun t => tabTok m d c s t.val) le_rfl
    (fun t => tabTok m d c s t) (fun k hk => by show tabTok m d c s k = tabTok m d c s (0 + k); rw [Nat.zero_add])).symm

/-- On the elements under a view, one whole piece written over any contents is the whole write of its payload. -/
theorem writes_whole_eq_write {sp : Space} {S : Shape} {e : EltTy} (v : View sig .scVector sp S e)
    (fo : v.ty.Contents (Elt F)) (w : S.Idx → Elt F e) :
    ∀ y ∈ v.set, v.writes (Elt F) fo [⟨Rect.whole S, w⟩] y = v.write (Elt F) fo w Finset.univ y := by
  intro y hy
  obtain ⟨x, rfl⟩ := View.exists_emb_of_mem_set v hy
  have h1 : v.read (Elt F) (v.writes (Elt F) fo [⟨Rect.whole S, w⟩]) x = v.read (Elt F) (v.write (Elt F) fo w Finset.univ) x := by
    rw [View.read_writes_whole, View.read_write_univ]
  rw [View.read_apply, View.read_apply] at h1
  exact (cast_inj _).mp h1

/-- The subcore's result rows, written whole from the rows scratch at its final contents, hold the lookup's values. -/
theorem out_part (w : S512x64.Idx → Elt F .f32) (hw : w = ReadAs.same.apply (View.read (Elt F) (sR).view (Rfin m d c s)))
    (fo : Buf (Elt F) ((oRows (coordsV c s)).view.loc (thr d c s))) :
    ((oRows (coordsV c s)).view.loc (thr d c s) ↦[(oRows (coordsV c s)).view.set]{fullShare}
        (oRows (coordsV c s)).view.writes (Elt F) fo [⟨Rect.whole S512x64, w⟩] : sProp 𝕄) ⊢ tdRes m d c s := by
  subst hw
  unfold tdRes
  exact (Entails.of_eq (pointsTo_congr fun y hy =>
    (writes_whole_eq_write (oRows (coordsV c s)).view fo _ y hy).trans (out_landed m d c s fo y hy))).trans
    (Entails.of_eq (pts_o (F := F) d c s (Gout m d)))

/-- One subcore's task: from its two read tokens, its result rows and its scoped storage, the kernel's body runs to the
    result rows holding the lookup's values, the scoped storage returned, the waits recorded. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d c s
        ∗ scopedBufs (thr d c s) ∗ scopedSems0 (thr d c s) ∗ owes (thr d c s) O W)
      ⊢ wp frame (wpE (defs₀ (F := F)) 𝒱₀ (thr d c s) none) Set.univ
          (cc0__sc_gather (coordsV c s) tV (Memref.isWhole_whole _) aV (Memref.isWhole_whole _) oV (Memref.isWhole_whole _)
            sI (Memref.isWhole_whole _) sR (Memref.isWhole_whole _) cc0_scratch2 cc0_scoped0 cc0_scoped1)
          fun _ => iprop(tdRes m d c s ∗ scopedBufs (thr d c s) ∗ scopedSems0 (thr d c s)
            ∗ ∃ W', ⌜∀ p ∈ W', p ∈ W ∨ p.2 = none⌝ ∗ owes (thr d c s) O W') := by
  simp only [cc0__sc_gather_eq_skeleton]; unfold cc0__sc_gather_skel
  rw [(K (F := F)).scopedBufs_V hF d _ _, SparseCore.Cfg.scopedSems0_V (Val := Elt F) d _ _, ownSems0_V, ownBufs_V]
  unfold goRes
  iintro ⟨#Hlv, -, ⟨Ha, Ht, Ho⟩, ⟨⟨%f0, Hs0⟩, ⟨%f1, Hs1⟩, Hbufs⟩, ⟨HsemR, HsemA, HsemB, Hsems⟩, HO⟩
  ihave Hmw := ((K (F := F)).mayWaits_none (thr := thr d c s) hO) $$ Hlv
  ihave Ha' := (Entails.of_eq (pts_a (F := F) d c s _ _).symm) $$ Ha
  ihave Ht' := (Entails.of_eq (pts_t (F := F) d c s _ _).symm) $$ Ht
  ihave Ho' := (Entails.of_eq (pts_o (F := F) d c s _).symm) $$ Ho
  ihave Hs0' := (Entails.of_eq (pts_sI (F := F) d c s _).symm) $$ Hs0
  ihave Hs1' := (Entails.of_eq (pts_sR (F := F) d c s _).symm) $$ Hs1
  -- the block's index words fetched
  sl_exec
  -- the subcore's table token as 512 tokens, one per row transfer
  ihave Ht2 := (Transfers.pointsTo_toks_range (Transfers.shareTokN fullShare (tokNo c s)) 512).1 $$ Ht'
  icases Ht2 with ⟨-, Htoks⟩
  ihave Htoks' := (Entails.of_eq (toks_range m d c s)) $$ Htoks
  -- the rows scratch as its 512 rows
  ihave Hrows := (Entails.of_eq (rows_range d c s f1)) $$ Hs1'
  -- the batch of 512 row transfers on the rows' semaphore
  imod (Transfers.batch_alloc' (Lvl := ℕ) (countersEmb (U := UU)) (thr d c s) (none : HIx 1) NN (rowD m d c s) (sm := .dma cc0_scratch2.sem) (E := Set.univ)) $$ HsemR with HB
  sl_for (inv1 m d c s f1) $$ [HB Hs0' Hrows Htoks']
  case region => intro k acc; exact issue_step m d c s hpre f1 k acc
  · unfold inv1
    isplitl [HB]; · iexact HB
    isplitl [Hs0']
    · iexists _; isplitr
      rotate_left
      · iexact Hs0'
      · ipureintro; exact idx_landed m d c s f0
    isplitl [Hrows]; · iexact Hrows
    iexact Htoks'
  iintro %_ HI
  unfold inv1
  icases HI with ⟨HB, ⟨%g0, -, Hs0⟩, -, -⟩
  -- the drain
  sl_for (inv2 m d c s O W) $$ [HB HO]
  case region => intro k acc; exact drain_step m d c s O W hO k acc
  · unfold inv2
    rw [if_pos (by decide : 0 < 512), Nat.zero_mul, show Scf.trips k0_t1_loop.lb k0_t1_loop.ub k0_t1_loop.st = 512 from ht1]
    isplitr; · ipureintro; omega
    isplitr; · iexact Hlv
    isplitl [HO]
    · iexists _; isplitr
      rotate_left
      · iexact HO
      · ipureintro; intro p hp
        rcases Finset.mem_insert.mp hp with rfl | hp
        · exact .inr rfl
        · exact .inl hp
    iexact HB
  iintro %_ HI
  unfold inv2
  rw [show Scf.trips k0_t2_loop.lb k0_t2_loop.ub k0_t2_loop.st = 512 from ht2, if_neg (Nat.lt_irrefl 512)]
  icases HI with ⟨-, -, ⟨%W', %hW', HO⟩, HsemR, Hall⟩
  -- every row landed: the rows scratch whole, holding the rows the words name
  ihave Hs1 := (Entails.of_eq (rows_join m d c s)) $$ Hall
  -- the write-back
  sl_exec
  sl_step
  isplitl [Ho']
  · iapply (out_part m d c s _ ?hw (m (oLoc d)))
    all_goals first | iexact Ho' | skip
    rfl
  isplitl [Hs0 Hs1 Hbufs]
  · isplitl [Hs0]; · iexists _; iexact Hs0
    isplitl [Hs1]; · iexists _; iexact Hs1
    iexact Hbufs
  isplitl [HsemR HsemA HsemB Hsems]
  · isplitl [HsemR]; · iexact HsemR
    isplitl [HsemA]; · iexact HsemA
    isplitl [HsemB]; · iexact HsemB
    iexact Hsems
  iexists _; isplitr
  rotate_left
  · iexact HO
  · ipureintro; intro p hp
    rcases Finset.mem_insert.mp hp with rfl | hp
    · exact .inr rfl
    · exact hW' p hp

end Tile

/-! ## The launch theorem's obligation -/

variable [FloatOps F]

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) aV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, as the launch theorem asks for it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d c i hF hpre O W hO).trans (wp_mono frame _ _ fun _ => obl_post)

end Cert.Proof.KI

end
-- ==== Proof.KB.Common.lean ====
/-
  The lookup kernel as the SparseCore launch theorem sees it, and what the launch's handshakes carry.

  The device's 32 vector subcores each copy 512 consecutive index words, fetch the 512 table rows those words name and
  write them to the matching 512 rows of the result. Subcore s of SparseCore c handles block number 2·s + c. Each subcore
  is handed a read share of the whole index list, a read share of the whole table (read tokens numbered 16·c + s, so
  that all 32 can be split off one array), and its own 512 result rows outright; it hands back its result rows holding the lookup's values (the read
  shares are not needed again: what the launch keeps of the two arrays already fixes their final contents).
-/
import proofs.«202693_g82240033784155_cont_sun_c4_174_23_alg».proof.Kernel
import proofs.«202693_g82240033784155_cont_sun_c4_174_23_alg».proof.Proof.Gen.Kernel
import proofs.«202693_g82240033784155_cont_sun_c4_174_23_alg».proof.Proof.Spec
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Ring
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory, the arrays and what the lookup leaves -/

variable (m : (ℓ : Loc nD τ sig) → Buf (Elt F) ℓ)

/-- The index list, the table and the result, as device arrays. -/
abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- Every index word names a table row. -/
def PreOK : Prop := ∀ (d : Dev nD) (n : S16384.Idx), (m (aLoc d) n).toNat ≤ 999999

/-- The result array's final contents: the lookup of the launch contents. -/
def Gout (d : Dev nD) : Buf (Elt F) (oLoc d) := Cert.Lookup.G (m (aLoc d)) (m (tLoc d))

/-- A subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The read-token number of subcore s of SparseCore c. -/
def tokNo (c : Fin 2) (s : Fin 16) : ℕ := c.val * 16 + s.val

/-- The result rows of the subcore at grid coordinates L, as the kernel slices them. -/
def oRows (L : grid0.Coords) : Memref sig .scVector .hbm S512x64 .f32 :=
  (Memref.whole main_v0_scv : Memref sig .scVector .hbm S16384x64 .f32).slice (Rect.unit (s := S16384x64) (k0_off6 L) S512x64.size (k0_off6_inb L)) (fun _ => rfl)
def oSet (L : grid0.Coords) : Finset S16384x64.Idx := (oRows L).view.set

/-- The index list and the table under read token n; a subcore's result rows at contents f. -/
abbrev aTok (d : Dev nD) (n : ℕ) : sProp 𝕄 := aLoc d ↦{Transfers.shareTokN fullShare n} m (aLoc d)
abbrev tTok (d : Dev nD) (n : ℕ) : sProp 𝕄 := tLoc d ↦{Transfers.shareTokN fullShare n} m (tLoc d)
abbrev oPart (d : Dev nD) (L : grid0.Coords) (f : Buf (Elt F) (oLoc d)) : sProp 𝕄 := oLoc d ↦[oSet L]{fullShare} f

/-- What a subcore is handed, and what it hands back. -/
def goRes (d : Dev nD) (c : Fin 2) (s : Fin 16) : sProp 𝕄 :=
  iprop(aTok m d (tokNo c s) ∗ tTok m d (tokNo c s) ∗ oPart d (coordsV c s) (m (oLoc d)))
def tdRes (d : Dev nD) (c : Fin 2) (s : Fin 16) : sProp 𝕄 :=
  oPart d (coordsV c s) (Gout m d)

/-- The handshakes' payloads: a SparseCore is handed what its sixteen subcores are, and hands back what they do. -/
def P : (K (F := F)).Pay (nD := nD) (Val := Elt F) (Name := ℕ) (U := UU) where
  st := fun q d c => match q with | 0 => bigSep Finset.univ fun s : Fin 16 => goRes m d c s
  dn := fun q d c => match q with | 0 => bigSep Finset.univ fun s : Fin 16 => tdRes m d c s
  go := fun q d c s => match q with | 0 => goRes m d c s
  td := fun q d c s => match q with | 0 => tdRes m d c s
  x := fun _ _ => iprop(emp)

instance P_storable : (P (F := F) m).IsStorable where
  st q d c := match q with | 0 => by unfold P goRes; infer_instance
  dn q d c := match q with | 0 => by unfold P tdRes; infer_instance
  go q d c s := match q with | 0 => by unfold P goRes; infer_instance
  td q d c s := match q with | 0 => by unfold P tdRes; infer_instance

end Cert.Proof.KB

end
-- ==== Proof.KB.Launch.lean ====
/-
  The launch of the lookup kernel: from a proof of one subcore's task to the run of the whole program.

  @main on the TensorCore is one call. Before it, the index list and the table are each split into 32 read tokens
  (numbered 16·c + s for subcore s of SparseCore c) and a remainder that @main keeps; the result array is split into
  the 32 blocks of 512 rows the subcores write (block number 2·s + c: element (n, j) lies in it exactly when
  n / 512 = 2·s + c, so the blocks are pairwise disjoint and cover the array). Each SparseCore is handed what its
  sixteen subcores are handed and hands back what they hand back. After the call the 32 row blocks come back holding
  the lookup's values and join to the result array whole; the two remainders still hold the launch contents. The final
  memory therefore has the result equal to the lookup of the launch contents and both arguments unchanged.
-/
import proofs.«202693_g82240033784155_cont_sun_c4_174_23_alg».proof.Proof.KB.Common
import Idealize.ShloMosaic.Lib.SparseCore.Launch
import Idealize.ShloMosaic.Lib.StableHlo.Run
import Idealize.ShloMosaic.Lib.Pipeline.Kit
import Idealize.ShloMosaic.Lib.Ring
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The result array as the 32 row blocks the subcores write -/

/-- A subcore's result rows are a unit rectangle of the result array. -/
theorem oSet_eq (L : grid0.Coords) :
    oSet L = (Rect.unit (s := S16384x64) (k0_off6 L) S512x64.size (k0_off6_inb L)).set := by
  unfold oSet oRows
  exact View.set_slice_whole (main_v0_scv : Ref sig .scVector) _

/-- Element (n, j) of the result lies in the rows of the subcore at coordinates L exactly when n's block of 512 rows is
    block number 2·(subcore) + (SparseCore). -/
theorem mem_oSet (L : grid0.Coords) (y : S16384x64.Idx) :
    y ∈ oSet L ↔ (y 0).val / 512 = 2 * (L 1).val + (L 0).val := by
  rw [oSet_eq, Rect.mem_set_unit, k0_off6_eq]
  have h1 : (y 1).val < 64 := (y 1).isLt
  constructor
  · intro H
    have a0 : 1024 * (L 1).val + 512 * (L 0).val ≤ (y 0).val ∧ (y 0).val < 1024 * (L 1).val + 512 * (L 0).val + 512 := H 0
    omega
  · intro H a; fin_cases a
    · show 1024 * (L 1).val + 512 * (L 0).val ≤ (y 0).val ∧ (y 0).val < 1024 * (L 1).val + 512 * (L 0).val + 512
      omega
    · show 0 ≤ (y 1).val ∧ (y 1).val < 0 + 64
      omega

/-- The row blocks, indexed by (SparseCore, subcore). -/
def oBlk (cs : Fin 2 × Fin 16) : Finset S16384x64.Idx := oSet (coordsV cs.1 cs.2)

theorem mem_oBlk (cs : Fin 2 × Fin 16) (y : S16384x64.Idx) : y ∈ oBlk cs ↔ (y 0).val / 512 = 2 * cs.2.val + cs.1.val := by
  unfold oBlk; rw [mem_oSet]; rfl

theorem oBlk_disjoint : ∀ b b' : Fin 2 × Fin 16, b ≠ b' → Disjoint (oBlk b) (oBlk b') := fun b b' hne => by
  rw [Finset.disjoint_left]; intro y hy hy'; rw [mem_oBlk] at hy hy'
  have h1 := b.1.isLt; have h2 := b'.1.isLt
  exact hne (Prod.ext (Fin.ext (by omega)) (Fin.ext (by omega)))

theorem oBlk_cover : Finset.univ.biUnion oBlk = Finset.univ := by
  ext y
  simp only [Finset.mem_biUnion, Finset.mem_univ, true_and, iff_true]
  have hy : (y 0).val < 16384 := (y 0).isLt
  exact ⟨(⟨(y 0).val / 512 % 2, Nat.mod_lt _ (by norm_num)⟩, ⟨(y 0).val / 512 / 2, by omega⟩), (mem_oBlk _ _).mpr (by show _ = 2 * ((y 0).val / 512 / 2) + (y 0).val / 512 % 2; omega)⟩

/-- The result array held whole is its 32 row blocks, one per subcore. -/
theorem oPts_blocks (d : Dev nD) (f : Buf (Elt F) (oLoc d)) :
    (oLoc d ↦{fullShare} f : sProp 𝕄)
      = bigSep Finset.univ fun c : Fin 2 => bigSep Finset.univ fun s : Fin 16 => oPart d (coordsV c s) f := by
  rw [Ring.pointsTo_blocks (ℓ := oLoc d) (q := fullShare) oBlk oBlk_disjoint oBlk_cover f, bigSep_univ_prod]
  rfl

/-! ## The index list and the table as 32 read tokens and a remainder -/

/-- An array held whole is the remainder after 32 read tokens and the tokens, numbered 16·c + s over the 2 × 16
    subcores. -/
theorem toks32 {ℓ : Loc nD τ sig} (f : Buf (Elt F) ℓ) :
    (ℓ ↦{fullShare} f : sProp 𝕄) ⊢ iprop((ℓ ↦{Transfers.shareDrop fullShare 32} f)
      ∗ bigSep Finset.univ fun c : Fin 2 => bigSep Finset.univ fun s : Fin 16 => ℓ ↦{Transfers.shareTokN fullShare (tokNo c s)} f) := by
  refine (Transfers.pointsTo_toks_split fullShare 32).trans (sep_mono_right (Entails.of_eq ?_))
  rw [bigSep_univ_equiv (finProdFinEquiv : Fin 2 × Fin 16 ≃ Fin 32), bigSep_univ_prod]
  refine bigSep_congr fun c _ => bigSep_congr fun s _ => ?_
  show (ℓ ↦{Transfers.shareTokN fullShare (finProdFinEquiv (c, s)).val} f : sProp 𝕄) = _
  rw [show (finProdFinEquiv (c, s)).val = tokNo c s from by rw [finProdFinEquiv_apply_val]; unfold tokNo; dsimp only; omega]

/-- Three families over the 2 × 16 subcores side by side are the three families apart. -/
theorem bigSep_cs_sep3 (A B C : Fin 2 → Fin 16 → sProp 𝕄) :
    (bigSep Finset.univ fun c : Fin 2 => bigSep Finset.univ fun s : Fin 16 => iprop(A c s ∗ B c s ∗ C c s))
      = iprop((bigSep Finset.univ fun c : Fin 2 => bigSep Finset.univ fun s : Fin 16 => A c s)
        ∗ (bigSep Finset.univ fun c : Fin 2 => bigSep Finset.univ fun s : Fin 16 => B c s)
        ∗ (bigSep Finset.univ fun c : Fin 2 => bigSep Finset.univ fun s : Fin 16 => C c s)) := by
  rw [show (bigSep Finset.univ fun c : Fin 2 => bigSep Finset.univ fun s : Fin 16 => iprop(A c s ∗ B c s ∗ C c s))
      = bigSep Finset.univ fun c : Fin 2 => iprop((bigSep Finset.univ fun s : Fin 16 => A c s)
          ∗ (bigSep Finset.univ fun s : Fin 16 => B c s) ∗ (bigSep Finset.univ fun s : Fin 16 => C c s))
    from bigSep_congr fun c _ => by rw [bigSep_sep', bigSep_sep'], bigSep_sep', bigSep_sep']

/-! ## The launch theorem's obligations other than the subcore's task -/

variable (m : (ℓ : Loc nD τ sig) → Buf (Elt F) ℓ) (ρ : Dev nD → PrngReg)

/-- A SparseCore is handed exactly what its sixteen subcores are, and hands back exactly what they do. -/
theorem vecSplit : (K (F := F)).VecSplit' (P m) 0 := by
  intro d c
  show (bigSep Finset.univ fun s : Fin 16 => goRes m d c s) ⊢ |={Set.univ}=> iprop(
      (bigSep Finset.univ fun s : Fin 16 => goRes m d c s)
      ∗ ((bigSep Finset.univ fun s : Fin 16 => tdRes m d c s) -∗ bigSep Finset.univ fun s : Fin 16 => tdRes m d c s))
  iintro H; imodintro
  isplitl [H]; · iexact H
  iintro H; iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call hands the two SparseCores: every subcore's tokens and rows. -/
theorem st0_eq (d : Dev nD) : (bigSep Finset.univ fun c : Fin ((K (F := F)).nCore 0) => (P m).st 0 d c)
    = iprop((bigSep Finset.univ fun c : Fin 2 => bigSep Finset.univ fun s : Fin 16 => aTok m d (tokNo c s))
      ∗ (bigSep Finset.univ fun c : Fin 2 => bigSep Finset.univ fun s : Fin 16 => tTok m d (tokNo c s))
      ∗ (bigSep Finset.univ fun c : Fin 2 => bigSep Finset.univ fun s : Fin 16 => oPart d (coordsV c s) (m (oLoc d)))) :=
  bigSep_cs_sep3 (fun c s => aTok m d (tokNo c s)) (fun c s => tTok m d (tokNo c s)) (fun c s => oPart d (coordsV c s) (m (oLoc d)))

/-- What it hands back: every subcore's rows, holding the lookup. -/
theorem dn0_eq (d : Dev nD) : (bigSep Finset.univ fun c : Fin ((K (F := F)).nCore 0) => (P m).dn 0 d c)
    = bigSep Finset.univ fun c : Fin 2 => bigSep Finset.univ fun s : Fin 16 => oPart d (coordsV c s) (Gout m d) := rfl

/-- What @main leaves the claim: the remainders of the index list and of the table at their launch contents, the result
    holding the lookup. -/
abbrev FIN (d : Dev nD) : sProp 𝕄 :=
  iprop((aLoc d ↦{Transfers.shareDrop fullShare 32} m (aLoc d)) ∗ (tLoc d ↦{Transfers.shareDrop fullShare 32} m (tLoc d)) ∗ oLoc d ↦{fullShare} Gout m d)

/-- @main on device d's TensorCore: the index list and the table each split into 32 read tokens and a remainder, the
    result into its 32 row blocks; the call; the row blocks, back at the lookup's values, joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  ihave Ha' := (toks32 (F := F) (m (aLoc d))) $$ Ha
  icases Ha' with ⟨Har, Hat⟩
  ihave Ht' := (toks32 (F := F) (m (tLoc d))) $$ Ht
  icases Ht' with ⟨Htr, Htt⟩
  ihave Ho' := (Entails.of_eq (oPts_blocks (F := F) d (m (oLoc d)))) $$ Ho
  iapply ((K (F := F)).wp_run (D (F := F)) 𝒱 (EH := EH) (P := P m) κ d 0) $$ [Hst Hat Htt Ho' Har Htr]
  isplitr; · iexact Hctx
  isplitl [Hst]; · iexact Hst
  isplitl [Hat Htt Ho']
  · rw [st0_eq]
    isplitl [Hat]; · iexact Hat
    isplitl [Htt]; · iexact Htt
    iexact Ho'
  iintro ⟨Hst, Hdn⟩
  ihave Hdn' := (Entails.of_eq (dn0_eq m d)) $$ Hdn
  ihave Ho := (Entails.of_eq (oPts_blocks (F := F) d (Gout m d)).symm) $$ Hdn'
  imodintro
  isplitl [Hst]; · iexact Hst
  isplitl [Har]; · iexact Har
  isplitl [Htr]; · iexact Htr
  iexact Ho

/-! ## The claim read off the final memory -/

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := Transfers.shareDrop fullShare 32) (f := m (aLoc d)))) $$ [HSI Ha]
  · isplitl [HSI] <;> iassumption
  icases H with ⟨%h1, HSI, -⟩
  ihave H := (persistent_entails_right (SI_pointsTo_agree (st := s') (ℓ := tLoc d) (I := Finset.univ) (q := Transfers.shareDrop fullShare 32) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- From a proof of one subcore's task: every weakly fair execution of the device's threads terminates, the result
    holding the lookup of the launch contents, the index list and the table unchanged. -/
theorem run_main [∀ e, Nonempty (Elt F e)] (m : (ℓ : Loc nD τ sig) → Buf (Elt F) ℓ) (ρ : Dev nD → PrngReg)
    (htile : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem ((c.tc : Thread nD τ).loc main_v0) = Gout m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.KB

end
-- ==== Proof.KB.Tile.lean ====
/-
  One vector subcore's view of the lookup: its thread, its memrefs and semaphores, its scoped storage opened, and the
  pure data the two loops speak of. Subcore s of SparseCore c handles block w = 2·s + c: index words 512·w … 512·w + 511.
  Word r of the block names a table row; the rows scratch ends with row r holding that table row.
-/
import proofs.«202693_g82240033784155_cont_sun_c4_174_23_alg».proof.Proof.KB.Common
import Idealize.ShloMosaic.Lib.SparseCore.Ops
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## One subcore's memrefs, cells and scoped storage -/

/-- The arrays and the two scratch buffers as the body table passes them. -/
abbrev aV : Memref sig .scVector .hbm S16384 .i32 := Memref.whole main_arg0_scv
abbrev tV : Memref sig .scVector .hbm S1000000x64 .f32 := Memref.whole main_arg1_scv
abbrev oV : Memref sig .scVector .hbm S16384x64 .f32 := Memref.whole main_v0_scv
abbrev sI : Memref sig .scVector .vmem S512 .i32 := Memref.whole cc0_scratch0
abbrev sR : Memref sig .scVector .vmem S512x64 .f32 := Memref.whole cc0_scratch1

section Tile

variable (d : Dev nD) (c : Fin 2) (s : Fin 16)

/-- The subcore's thread. -/
abbrev thr : Thread nD τ := V d (((coordsV c s) 0).castLE hcore0) (((coordsV c s) 1).castLE hsub0)

/-- Its three transfer semaphores: the rows', the index copy's, the write-back's. -/
abbrev cellR : GSem nD τ sig := (thr d c s, .dma cc0_scratch2.sem)
abbrev cellA : GSem nD τ sig := (thr d c s, .dma cc0_scoped0.sem)
abbrev cellB : GSem nD τ sig := (thr d c s, .dma cc0_scoped1.sem)

theorem ownSems0_V :
    (ownSems0 (thr d c s) : sProp 𝕄)
      = iprop(semVal (cellR d c s) 0 ∗ semVal (cellA d c s) 0 ∗ semVal (cellB d c s) 0
          ∗ bigSep ((((ownCells (thr d c s)).erase (cellR d c s)).erase (cellA d c s)).erase (cellB d c s)) fun g => semVal g 0) := by
  unfold SparseCore.Cfg.ownSems0
  rw [SparseCore.bigSep_erase' ((mem_ownCells (g := cellR d c s)).mpr ⟨rfl, by
      show (SemLoc.dma cc0_scratch2.sem : SemLoc sig).isScoped .scVector = true; decide⟩),
    SparseCore.bigSep_erase' (Finset.mem_erase.mpr ⟨by simp [cellR, cellA]; decide, (mem_ownCells (g := cellA d c s)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellR, cellB]; decide,
      (mem_ownCells (g := cellB d c s)).mpr ⟨rfl, by show (SemLoc.dma cc0_scoped1.sem : SemLoc sig).isScoped .scVector = true; decide⟩⟩⟩)]

/-- The two scratch buffers are among the subcore's own. -/
theorem ownBufs_V :
    (ownBufs (thr d c s) : sProp 𝕄)
      = iprop((∃ f, (thr d c s).loc cc0_scratch0 ↦{fullShare} f) ∗ (∃ f, (thr d c s).loc cc0_scratch1 ↦{fullShare} f)
          ∗ bigSep (((ownRefs (τ := τ) (.scVector (((coordsV c s) 0).castLE hcore0) (((coordsV c s) 1).castLE hsub0))).erase
                ((Proc.scVector (((coordsV c s) 0).castLE hcore0) (((coordsV c s) 1).castLE hsub0)).devRef cc0_scratch0)).erase
              ((Proc.scVector (((coordsV c s) 0).castLE hcore0) (((coordsV c s) 1).castLE hsub0)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (((coordsV c s) 0).castLE hcore0) (((coordsV c s) 1).castLE hsub0))
    (b := (Proc.scVector (((coordsV c s) 0).castLE hcore0) (((coordsV c s) 1).castLE hsub0)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (((coordsV c s) 0).castLE hcore0) (((coordsV c s) 1).castLE hsub0))
      (b := (Proc.scVector (((coordsV c s) 0).castLE hcore0) (((coordsV c s) 1).castLE hsub0)).devRef cc0_scratch1) rfl⟩)]

/-- The arrays and scratch buffers as the subcore's memrefs address them are the device's arrays and its own buffers. -/
theorem pts_a (q : PosShare TreeShare) (f : Buf (Elt F) (aLoc d)) :
    ((aV).view.loc (thr d c s) ↦{q} f : sProp 𝕄) = aLoc d ↦{q} f := by
  simp only [Memref.view_whole, View.set_whole]
theorem pts_t (q : PosShare TreeShare) (f : Buf (Elt F) (tLoc d)) :
    ((tV).view.loc (thr d c s) ↦{q} f : sProp 𝕄) = tLoc d ↦{q} f := by
  simp only [Memref.view_whole, View.set_whole]
theorem pts_o (f : Buf (Elt F) (oLoc d)) :
    ((oRows (coordsV c s)).view.loc (thr d c s) ↦[(oRows (coordsV c s)).view.set]{fullShare} f : sProp 𝕄) = oPart d (coordsV c s) f := rfl
theorem pts_sI (f : Buf (Elt F) ((thr d c s).loc cc0_scratch0)) :
    ((sI).view.loc (thr d c s) ↦{fullShare} f : sProp 𝕄) = (thr d c s).loc cc0_scratch0 ↦{fullShare} f := rfl
theorem pts_sR (f : Buf (Elt F) ((thr d c s).loc cc0_scratch1)) :
    ((sR).view.loc (thr d c s) ↦{fullShare} f : sProp 𝕄) = (thr d c s).loc cc0_scratch1 ↦{fullShare} f := rfl

/-! ## The rows' transfers -/

theorem ht1 : k0_t1_loop.trips = 512 := by decide
theorem ht2 : k0_t2_loop.trips = 512 := by decide

/-- Row r of the rows scratch, as the issue loop slices it. -/
def rowM (r : Fin k0_t1_loop.trips) : Memref sig .scVector .vmem S64 .f32 :=
  ((sR).slice (Rect.unit (s := S512x64) (k0_off5 r) S1x64.size (k0_off5_inb r)) (fun _ => rfl)).squeeze S64 squeezes_S1x64_S64

/-- Row 0 of it, as the drain loop names the waits' destination. -/
def rowM0 : Memref sig .scVector .vmem S64 .f32 :=
  ((sR).slice (Rect.unit (s := S512x64) ![0, 0] S1x64.size inb_S512x64_S1x64_0_0) (fun _ => rfl)).squeeze S64 squeezes_S1x64_S64

/-- The table row an index word names, as the issue loop slices it. -/
def srcM (w : BitVec 32) (h : k0_chk1 w) : Memref sig .scVector .hbm S64 .f32 :=
  (((tV).reshape S125000x8x64 reshapes_S1000000x64_S125000x8x64.1 reshapes_S1000000x64_S125000x8x64.2 (Memref.isWhole_whole _).contiguous).slice
    (Rect.unit (s := S125000x8x64) (k0_off4 w) S1x1x64.size (k0_off4_inb w h)) (fun _ => rfl)).squeeze S64 squeezes_S1x1x64_S64

/-- One row's credit on the rows' semaphore. -/
abbrev NN : ℕ := (rowM0).view.dmaCredit

variable [FloatOps F]

/-! ## The block's words and the rows' final contents -/

open Idealize.ShloMosaic.ValueIdx in
/-- The index word number r of the subcore's block: entry 512·(2s + c) + r of the index list. -/
def wordAt (r : Fin 512) : BitVec 32 :=
  m (aLoc d) (ix1 ⟨512 * (2 * s.val + c.val) + r.val, by have := s.isLt; have := c.isLt; have := r.isLt; omega⟩)

open Idealize.ShloMosaic.ValueIdx in
/-- The rows scratch once every row has landed: row r holds the table row that word r names. -/
def Rfin : Buf (Elt F) ((thr d c s).loc cc0_scratch1) :=
  show S512x64.Idx → Elt F .f32 from
  fun y => m (tLoc d) (ix2 (Cert.Lookup.rowOf (wordAt m d c s ⟨(y 0).val, idx2_lt0 y⟩)) ⟨(y 1).val, idx2_lt1 y⟩)

end Tile

end Cert.Proof.KB

end
-- ==== Proof.KB.Values.lean ====
/-
  The pure value facts one subcore's task rests on: an index word that names a table row passes the kernel's range check;
  the word a trip loads is the index scratch's word of that number; each copy, once landed, leaves the expected
  contents — the index scratch holds the subcore's block of the index list, row k of the rows scratch holds the table
  row that word k names, the subcore's result rows hold the lookup —; and the rows scratch is the disjoint union of
  its 512 rows.
-/
import proofs.«202693_g82240033784155_cont_sun_c4_174_23_alg».proof.Proof.KB.Tile
import proofs.«202693_g82240033784155_cont_sun_c4_174_23_alg».proof.Proof.KB.Launch
import proofs.«202693_g82240033784155_cont_sun_c4_174_23_alg».proof.Proof.Gen.Kernel.Skeleton
import Idealize.ShloMosaic.Lib.ValueIdx
import Idealize.ShloMosaic.Lib.Pipeline.Value
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-! ## An index word's table row, as the kernel computes its place -/

/-- For a word below 2^31 the arithmetic shift right by 3 is division by 8; -/
theorem shrsi3_toNat (w : BitVec 32) (h : w.toNat ≤ 999999) : (Scalar.shrsi w 3#32).toNat = w.toNat / 8 := by
  have hm : w.msb = false := by rw [BitVec.msb_eq_false_iff_two_mul_lt]; omega
  show (IntOp.shrsi .scalar w 3#32).toNat = _
  unfold IntOp.shrsi
  rw [if_pos (by decide), BitVec.sshiftRight_eq', BitVec.toNat_sshiftRight_of_msb_false hm, Nat.shiftRight_eq_div_pow]
  rfl

/-- and the mask with 7 is the remainder modulo 8. -/
theorem andi7_toNat (w : BitVec 32) : (Scalar.andi w 7#32).toNat = w.toNat % 8 := by
  show (w &&& 7#32).toNat = _
  rw [BitVec.toNat_and]
  exact Nat.and_two_pow_sub_one_eq_mod w.toNat 3

/-- The place of the table row a word names, in the table seen as 125000 groups of 8 rows. -/
theorem k0_off4_eq (w : BitVec 32) (h : w.toNat ≤ 999999) : k0_off4 w = ![w.toNat / 8, w.toNat % 8, 0] := by
  unfold k0_off4
  simp only [shrsi3_toNat w h, andi7_toNat w]

section Tile

variable (d : Dev nD) (c : Fin 2) (s : Fin 16)

variable [FloatOps F]

/-- A word that names a table row passes the kernel's range check. -/
theorem chk_of_le (w : BitVec 32) (h : w.toNat ≤ 999999) : k0_chk1 w := by
  unfold k0_chk1
  rw [k0_off4_eq w h]
  intro a; fin_cases a
  · show w.toNat / 8 + 1 ≤ 125000; omega
  · show w.toNat % 8 + 1 ≤ 8; omega
  · show 0 + 64 ≤ 64; omega

/-- The word the issue loop's trip k loads from the index scratch is the scratch's word number k. -/
theorem loaded_word (g0 : S512.Idx → BitVec 32) (k : Fin k0_t1_loop.trips) :
    extractAt ![0] (k0_pay1 (F := F) (View.readAt (Elt F) (sI).view (Rect.unit (s := S512) (k0_off2 k) S1.size (k0_off2_inb k)).toLoadRect g0)) inpos_S1_p0
      = g0 (ix1 ⟨k.val, ht1 ▸ k.isLt⟩) := by
  unfold k0_pay1
  rw [shapeCast_self]
  show g0 _ = g0 _
  congr 1
  funext a
  apply Fin.ext
  match a with
  | ⟨0, _⟩ =>
    show (k0_off2 k) 0 + 1 * 0 = k.val
    rw [k0_off2_eq]; rfl

/-! ## The rows scratch as its 512 rows -/

/-- Row k of the rows scratch, as the issue loop slices it, is a unit rectangle of the scratch. -/
theorem rowM_set_eq (k : Fin k0_t1_loop.trips) :
    (rowM k).view.set = (Rect.unit (s := S512x64) (k0_off5 k) S1x64.size (k0_off5_inb k)).set := by
  unfold rowM
  exact (View.set_reshape _ _).trans (View.set_slice_whole (cc0_scratch1 : Ref sig .scVector) _)

/-- Its elements are the scratch's elements (k, j). -/
theorem mem_rowM (k : Fin k0_t1_loop.trips) (y : S512x64.Idx) : y ∈ (rowM k).view.set ↔ (y 0).val = k.val := by
  have H : y ∈ (Rect.unit (s := S512x64) (k0_off5 k) S1x64.size (k0_off5_inb k)).set ↔ (y 0).val = k.val := by
    rw [Rect.mem_set_unit, k0_off5_eq]
    have h1 : (y 1).val < 64 := (y 1).isLt
    constructor
    · intro H
      have a0 : k.val ≤ (y 0).val ∧ (y 0).val < k.val + 1 := H 0
      omega
    · intro H a; fin_cases a
      · show k.val ≤ (y 0).val ∧ (y 0).val < k.val + 1
        omega
      · show 0 ≤ (y 1).val ∧ (y 1).val < 0 + 64
        omega
  exact (Finset.ext_iff.mp (rowM_set_eq k) y).trans H

/-- The rows, numbered 0 … 511. -/
def rowSetT (t : Fin 512) : Finset S512x64.Idx := (rowM (Fin.cast ht1.symm t)).view.set

theorem mem_rowSetT (t : Fin 512) (y : S512x64.Idx) : y ∈ rowSetT t ↔ (y 0).val = t.val := by
  unfold rowSetT; exact mem_rowM _ y

theorem rowSetT_disjoint : ∀ t t' : Fin 512, t ≠ t' → Disjoint (rowSetT t) (rowSetT t') := fun t t' hne => by
  rw [Finset.disjoint_left]; intro y hy hy'; rw [mem_rowSetT] at hy hy'; exact hne (Fin.ext (by omega))

theorem rowSetT_cover : Finset.univ.biUnion rowSetT = Finset.univ := by
  ext y
  simp only [Finset.mem_biUnion, Finset.mem_univ, true_and, iff_true]
  exact ⟨⟨(y 0).val, idx2_lt0 y⟩, (mem_rowSetT _ _).mpr rfl⟩

/-! ## What the copies leave -/

/-- The index scratch after the subcore's block of the index list has landed: word r is the block's word r. -/
theorem idx_landed (f0 : Buf (Elt F) ((thr d c s).loc cc0_scratch0)) (r : Fin 512) :
    View.write (Elt F) (sI).view f0 (ReadAs.same.apply (View.read (Elt F) ((aV).slice (Rect.unit (s := S16384) (k0_off1 (coordsV c s)) S512.size (k0_off1_inb (coordsV c s))) (fun _ => rfl)).view (m (aLoc d)))) Finset.univ (ix1 r) = wordAt m d c s r := by
  refine (congrFun (View.write_whole_univ (Val := Elt F) (cc0_scratch0 : Ref sig .scVector) f0 _) (ix1 r)).trans ?_
  unfold wordAt
  show m (aLoc d) _ = m (aLoc d) _
  congr 1
  funext a
  apply Fin.ext
  match a with
  | ⟨0, _⟩ =>
    show (k0_off1 (coordsV c s)) 0 + 1 * r.val = 512 * (2 * s.val + c.val) + r.val
    rw [k0_off1_eq]
    show 1024 * s.val + 512 * c.val + 1 * r.val = _
    omega

/-- Where entry j of row k of the rows scratch sits in the scratch: at (k, j). -/
theorem rowM_emb (k : Fin k0_t1_loop.trips) (x : S64.Idx) :
    ((rowM k).view.emb x : S512x64.Idx) = ix2 (⟨k.val, ht1 ▸ k.isLt⟩ : Fin 512) (⟨(x 0).val, (x 0).isLt⟩ : Fin 64) := by
  unfold rowM
  show (Rect.unit (s := S512x64) (k0_off5 k) S1x64.size (k0_off5_inb k)).emb (Shape.reshapeEquiv _ x) = _
  have hy : Shape.reshapeEquiv (s := (Rect.unit (s := S512x64) (k0_off5 k) S1x64.size (k0_off5_inb k)).shape) (s' := S64) squeezes_S1x64_S64.numel_eq x
      = (ix2 (0 : Fin 1) (x 0)) :=
    Shape.reshapeEquiv_eq_of_rowMajor _ (by
      show ((⟨2, ![1, 64]⟩ : Shape).rowMajor (ix2 (0 : Fin 1) (x 0))).val = ((⟨1, ![64]⟩ : Shape).rowMajor x).val
      rw [Shape.rowMajor_val_two, Shape.rowMajor_val_one]
      show 0 * 64 + (x 0).val = (x 0).val
      omega)
  rw [hy]
  funext a
  apply Fin.ext
  match a with
  | ⟨0, _⟩ =>
    show (k0_off5 k) 0 + 1 * 0 = k.val
    rw [k0_off5_eq]; rfl
  | ⟨1, _⟩ =>
    show (k0_off5 k) 1 + 1 * (x 0).val = (x 0).val
    rw [k0_off5_eq]
    show 0 + 1 * (x 0).val = (x 0).val
    omega

/-- Where entry j of the table row a word names sits in the table: the table seen as 125000 groups of 8 rows, at group
    w / 8, row w % 8 of the group, is the table's row (w / 8)·8 + w % 8 = w. -/
theorem srcM_emb (w : BitVec 32) (hchk : k0_chk1 w) (hle : w.toNat ≤ 999999) (x : S64.Idx) :
    ((srcM w hchk).view.emb x : S1000000x64.Idx) = ix2 (⟨w.toNat, by omega⟩ : Fin 1000000) (⟨(x 0).val, (x 0).isLt⟩ : Fin 64) := by
  unfold srcM
  show Shape.reshapeEquiv _ ((Rect.unit (s := S125000x8x64) (k0_off4 w) S1x1x64.size (k0_off4_inb w hchk)).emb (Shape.reshapeEquiv _ x)) = _
  have hy : Shape.reshapeEquiv (s := (Rect.unit (s := S125000x8x64) (k0_off4 w) S1x1x64.size (k0_off4_inb w hchk)).shape) (s' := S64) squeezes_S1x1x64_S64.numel_eq x
      = (ix3 (0 : Fin 1) (0 : Fin 1) (x 0)) :=
    Shape.reshapeEquiv_eq_of_rowMajor _ (by
      show ((⟨3, ![1, 1, 64]⟩ : Shape).rowMajor (ix3 (0 : Fin 1) (0 : Fin 1) (x 0))).val = ((⟨1, ![64]⟩ : Shape).rowMajor x).val
      rw [Shape.rowMajor_val_three, Shape.rowMajor_val_one]
      show (0 * 1 + 0) * 64 + (x 0).val = (x 0).val
      omega)
  rw [hy]
  refine Shape.reshapeEquiv_eq_of_rowMajor _ ?_
  show ((⟨2, ![1000000, 64]⟩ : Shape).rowMajor (ix2 (⟨w.toNat, by omega⟩ : Fin 1000000) (⟨(x 0).val, (x 0).isLt⟩ : Fin 64))).val
    = ((⟨3, ![125000, 8, 64]⟩ : Shape).rowMajor ((Rect.unit (s := S125000x8x64) (k0_off4 w) S1x1x64.size (k0_off4_inb w hchk)).emb (ix3 (0 : Fin 1) (0 : Fin 1) (x 0)))).val
  rw [Shape.rowMajor_val_two, Shape.rowMajor_val_three]
  show w.toNat * 64 + (x 0).val
    = (((k0_off4 w) 0 + 1 * 0) * 8 + ((k0_off4 w) 1 + 1 * 0)) * 64 + ((k0_off4 w) 2 + 1 * (x 0).val)
  rw [k0_off4_eq w hle]
  show w.toNat * 64 + (x 0).val = ((w.toNat / 8 + 1 * 0) * 8 + (w.toNat % 8 + 1 * 0)) * 64 + (0 + 1 * (x 0).val)
  omega

/-- Row k of the rows scratch after the table row its word names has landed: entry (k, j) is the table's entry
    (row of word k, j). -/
theorem row_landed (k : Fin k0_t1_loop.trips) (w : BitVec 32) (hchk : k0_chk1 w) (hle : w.toNat ≤ 999999) (hw : w = wordAt m d c s ⟨k.val, ht1 ▸ k.isLt⟩) (fd : Buf (Elt F) ((rowM k).view.loc (thr d c s))) :
    ∀ y ∈ (rowM k).view.set, View.write (Elt F) (rowM k).view fd (ReadAs.same.apply (View.read (Elt F) (srcM w hchk).view (m (tLoc d)))) Finset.univ y = Rfin m d c s y := by
  intro y hy
  obtain ⟨x, rfl⟩ := View.exists_emb_of_mem_set _ hy
  rw [View.write_emb_of_mem _ _ (Finset.mem_univ x)]
  refine (cast_eq _ _).trans ?_
  show _root_.cast _ (m (tLoc d) ((srcM w hchk).view.emb x)) = _
  refine (cast_eq _ _).trans ?_
  refine (congrArg (m (tLoc d)) (srcM_emb w hchk hle x)).trans ?_
  refine Eq.trans ?_ (congrArg (Rfin m d c s) (rowM_emb k x)).symm
  unfold Rfin
  show m (tLoc d) _ = m (tLoc d) (ix2 (Cert.Lookup.rowOf (wordAt m d c s ⟨k.val, ht1 ▸ k.isLt⟩)) (⟨(x 0).val, (x 0).isLt⟩ : Fin 64))
  rw [← hw]
  congr 1
  funext a
  apply Fin.ext
  match a with
  | ⟨0, _⟩ => exact (Cert.Lookup.rowOf_val w hle).symm
  | ⟨1, _⟩ => rfl

end Tile

end Cert.Proof.KB

end
-- ==== Proof.KB.ValuesOut.lean ====
/-
  The write-back read at an index. A subcore's result rows are a block of 512 consecutive rows of the result array: an
  element y of the block is the image of a scratch index (r, j), with row 512·(2s + c) + r and column j. Writing the rows
  scratch's final contents through the block puts the scratch's entry (r, j) at y; that entry is the table's entry
  (row of word r of the block, j), and word r of the block is the index word number 512·(2s + c) + r, so the value at y
  is the lookup's.
-/
import proofs.«202693_g82240033784155_cont_sun_c4_174_23_alg».proof.Proof.KB.Tile
import proofs.«202693_g82240033784155_cont_sun_c4_174_23_alg».proof.Proof.KB.Launch
import Idealize.ShloMosaic.Lib.ValueIdx
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (m : (ℓ : Loc nD τ sig) → Buf (Elt F) ℓ)

section Tile

variable (d : Dev nD) (c : Fin 2) (s : Fin 16) [FloatOps F]

/-- The rows scratch's final entry at (r, j) is the lookup's value at any result index whose row is 512·(2s + c) + r
    and whose column is j. -/
theorem Rfin_eq_Gout (x : S512x64.Idx) (e : S16384x64.Idx)
    (h0 : (e 0).val = 512 * (2 * s.val + c.val) + (x 0).val) (h1 : (e 1).val = (x 1).val) :
    (Rfin m d c s : S512x64.Idx → Elt F .f32) x = (Gout m d : S16384x64.Idx → Elt F .f32) e := by
  have ea : (⟨512 * (2 * s.val + c.val) + (x 0).val, by have := s.isLt; have := c.isLt; have := idx2_lt0 x; omega⟩ : Fin 16384)
      = ⟨(e 0).val, idx2_lt0 e⟩ := Fin.ext h0.symm
  have eb : (⟨(x 1).val, idx2_lt1 x⟩ : Fin 64) = ⟨(e 1).val, idx2_lt1 e⟩ := Fin.ext h1.symm
  show m (tLoc d) (ix2 (Cert.Lookup.rowOf (m (aLoc d) (ix1 ⟨512 * (2 * s.val + c.val) + (x 0).val, _⟩))) ⟨(x 1).val, _⟩)
    = m (tLoc d) (ix2 (Cert.Lookup.rowOf (m (aLoc d) (ix1 ⟨(e 0).val, _⟩))) ⟨(e 1).val, _⟩)
  rw [ea, eb]

/-- The subcore's row block places scratch index (r, j) at row 512·(2s + c) + r … -/
theorem oRows_emb_row (x : S512x64.Idx) :
    (((Rect.unit (s := S16384x64) (k0_off6 (coordsV c s)) S512x64.size (k0_off6_inb (coordsV c s))).emb x) 0).val
      = 512 * (2 * s.val + c.val) + (x 0).val := by
  have e : (((Rect.unit (s := S16384x64) (k0_off6 (coordsV c s)) S512x64.size (k0_off6_inb (coordsV c s))).emb x) 0).val
      = k0_off6 (coordsV c s) 0 + 1 * (x 0).val := rfl
  rw [e, k0_off6_eq]
  show 1024 * s.val + 512 * c.val + 1 * (x 0).val = _
  omega

/-- … and column j. -/
theorem oRows_emb_col (x : S512x64.Idx) :
    (((Rect.unit (s := S16384x64) (k0_off6 (coordsV c s)) S512x64.size (k0_off6_inb (coordsV c s))).emb x) 1).val = (x 1).val := by
  have e : (((Rect.unit (s := S16384x64) (k0_off6 (coordsV c s)) S512x64.size (k0_off6_inb (coordsV c s))).emb x) 1).val
      = k0_off6 (coordsV c s) 1 + 1 * (x 1).val := rfl
  rw [e, k0_off6_eq]
  show 0 + 1 * (x 1).val = _
  omega

/-- The write-back lands the lookup: the rows scratch's final contents written through the subcore's row block leave,
    at every element of the block, the lookup's value there. -/
theorem out_landed (fo : Buf (Elt F) ((oRows (coordsV c s)).view.loc (thr d c s))) :
    ∀ y ∈ (oRows (coordsV c s)).view.set, View.write (Elt F) (oRows (coordsV c s)).view fo (ReadAs.same.apply (View.read (Elt F) (sR).view (Rfin m d c s))) Finset.univ y = Gout m d y := by
  intro y hy
  obtain ⟨x, rfl⟩ := View.exists_emb_of_mem_set _ hy
  rw [View.write_emb_of_mem _ _ (Finset.mem_univ x)]
  exact Rfin_eq_Gout m d c s x _ (oRows_emb_row c s x) (oRows_emb_col c s x)

end Tile

end Cert.Proof.KB

end
-- ==== Proof.KB.Body.lean ====
/-
  One vector subcore's task of the lookup kernel, proved once for every subcore.

  The body: (1) the subcore's 512 index words are copied to the index scratch and waited for; (2) for r = 0 … 511 word r
  is read, checked to name a table row (it does: the precondition bounds every index word by 999999), and a transfer of
  that table row into row r of the rows scratch is issued — all 512 on ONE semaphore; (3) 512 waits, each for one row's
  units, drain them: only the last wait knows that every row has landed, and it hands all 512 rows back at once;
  (4) the rows scratch is copied to the subcore's 512 result rows and waited for.
  The 512 transfers in flight are a counted batch on the semaphore; each reads the table under a read token of its own
  (two words may name the same row) and writes a row of the scratch nothing else touches. Afterwards row r of the
  scratch is the table row word r names, so result row 512·(2s + c) + r is the lookup's.
-/
import proofs.«202693_g82240033784155_cont_sun_c4_174_23_alg».proof.Proof.KB.Common
import proofs.«202693_g82240033784155_cont_sun_c4_174_23_alg».proof.Proof.Gen.Kernel.Skeleton
import Idealize.ShloMosaic.Lib.SparseCore.Ops
import proofs.«202693_g82240033784155_cont_sun_c4_174_23_alg».proof.Proof.KB.Tile
import proofs.«202693_g82240033784155_cont_sun_c4_174_23_alg».proof.Proof.KB.Values
import proofs.«202693_g82240033784155_cont_sun_c4_174_23_alg».proof.Proof.KB.ValuesOut
import Idealize.ShloMosaic.Lib.Exec.Geometry

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (c : Fin 2) (s : Fin 16) [FloatOps F]

open Idealize.ShloMosaic.ValueIdx

/-! ## What the loops hold -/

/-- A row of the rows scratch held outright at contents f. -/
def rowPiece (r : Fin 512) (f : Buf (Elt F) ((thr d c s).loc cc0_scratch1)) : sProp 𝕄 :=
  (rowM (Fin.cast ht1.symm r)).view.loc (thr d c s) ↦[(rowM (Fin.cast ht1.symm r)).view.set]{fullShare} f

/-- The table under the r-th read token of the subcore's token. -/
def tabTok (r : ℕ) : sProp 𝕄 :=
  (tV).view.loc (thr d c s) ↦{Transfers.shareTokN (Transfers.shareTokN fullShare (tokNo c s)) r} m (tLoc d)

/-- What transfer t delivers: row t at its final contents. -/
def rowD (t : Fin 512) : sProp 𝕄 := rowPiece d c s t (Rfin m d c s)

instance rowD_storable (t : Fin 512) : BI.Storable (upEmb : UEmb _ 𝕄) (rowD m d c s t) := by
  unfold rowD rowPiece
  exact inferInstanceAs (BI.Storable (upEmb : UEmb _ 𝕄) ((View.loc (thr d c s) (rowM (Fin.cast ht1.symm t)).view) ↦[(rowM (Fin.cast ht1.symm t)).view.set]{fullShare}
    (show Buf (Elt F) (View.loc (thr d c s) (rowM (Fin.cast ht1.symm t)).view) from Rfin m d c s)))

/-- The batch of 512 row transfers: j issued, u units consumed. -/
abbrev batch (j u : ℕ) : sProp 𝕄 :=
  Transfers.Batch (countersEmb (U := UU)) (thr d c s) (.dma cc0_scratch2.sem) (none : HIx 1) NN (rowD m d c s) j u

/-- The rows scratch held whole is its 512 rows held one by one. -/
theorem rows_split (f : Buf (Elt F) ((thr d c s).loc cc0_scratch1)) :
    ((sR).view.loc (thr d c s) ↦{fullShare} f : sProp 𝕄) = bigSep Finset.univ (fun t => rowPiece d c s t f) :=
  Ring.pointsTo_blocks (ℓ := (sR).view.loc (thr d c s)) (q := fullShare) rowSetT rowSetT_disjoint rowSetT_cover f

/-- Every word of the block names a table row. -/
theorem word_le (hpre : PreOK m) (r : Fin 512) : (wordAt m d c s r).toNat ≤ 999999 := hpre d _

/-- The word the issue loop reads at trip k is word k of the block, and passes the kernel's range check. -/
theorem word_eq (g0 : S512.Idx → BitVec 32) (hg0 : ∀ r : Fin 512, g0 (ix1 r) = wordAt m d c s r) (k : Fin k0_t1_loop.trips) :
    extractAt ![0] (k0_pay1 (F := F) (View.readAt (Elt F) (sI).view (Rect.unit (s := S512) (k0_off2 k) S1.size (k0_off2_inb k)).toLoadRect g0)) inpos_S1_p0
      = wordAt m d c s ⟨k.val, ht1 ▸ k.isLt⟩ := by
  rw [loaded_word (F := F)]; exact hg0 _
theorem word_chk (hpre : PreOK m) (g0 : S512.Idx → BitVec 32) (hg0 : ∀ r : Fin 512, g0 (ix1 r) = wordAt m d c s r) (k : Fin k0_t1_loop.trips) :
    k0_chk1 (extractAt ![0] (k0_pay1 (F := F) (View.readAt (Elt F) (sI).view (Rect.unit (s := S512) (k0_off2 k) S1.size (k0_off2_inb k)).toLoadRect g0)) inpos_S1_p0) :=
  chk_of_le _ (by rw [word_eq m d c s g0 hg0 k]; exact word_le m d c s hpre _)

/-- Before trip k of the issue loop: k rows issued; the index scratch holding the block's words; the rows and the
    table tokens from k on still in hand. -/
def inv1 (f1 : Buf (Elt F) ((thr d c s).loc cc0_scratch1)) (k : ℕ) (_ : Unit) : sProp 𝕄 :=
  iprop(batch m d c s k 0
    ∗ (∃ g0 : S512.Idx → BitVec 32, ⌜∀ r : Fin 512, g0 (ix1 r) = wordAt m d c s r⌝ ∗ (sI).view.loc (thr d c s) ↦{fullShare} g0)
    ∗ bigSep (Ring.rangeSet 512 k 512) (fun r => rowPiece d c s r f1)
    ∗ bigSep (Ring.rangeSet 512 k 512) (fun r => tabTok m d c s r.val))

/-- One trip of the issue loop: word k read and checked, row k's elements of the table lent under token k, row k of the
    scratch lent, the transfer issued as the batch's k-th. -/
theorem issue_step (hpre : PreOK m) (f1 : Buf (Elt F) ((thr d c s).loc cc0_scratch1)) (k : Fin k0_t1_loop.trips) (acc : Unit) :
    inv1 m d c s f1 k.val acc ⊢ wp frame (wpE (defs₀ (F := F)) 𝒱₀ (thr d c s) none) Set.univ
      (k0_t1_body (coordsV c s) tV (Memref.isWhole_whole _) aV (Memref.isWhole_whole _) oV (Memref.isWhole_whole _)
            sI (Memref.isWhole_whole _) sR (Memref.isWhole_whole _) cc0_scratch2 cc0_scoped0 cc0_scoped1 k acc)
      (inv1 m d c s f1 (k.val + 1)) := by
  have hk : k.val < 512 := ht1 ▸ k.isLt
  unfold inv1
  rw [Ring.bigSep_rangeSet_head (Φ := fun r => rowPiece d c s r f1) hk hk,
    Ring.bigSep_rangeSet_head (Φ := fun r => tabTok m d c s r.val) hk hk]
  unfold tabTok rowPiece
  iintro ⟨HB, ⟨%g0, %hg0, Hs0⟩, ⟨Hrow, Hrows⟩, ⟨Htok, Htoks⟩⟩
  have HC := word_chk m d c s hpre g0 hg0 k
  have HE := word_eq m d c s g0 hg0 k
  unfold k0_t1_body
  sl_exec (disch := exact word_chk m d c s hpre g0 hg0 k)
  -- the row's elements of the table under token k; the rest of the token is not needed again
  ihave Htok' := (pointsTo_split_subset (ℓ := (tV).view.loc (thr d c s)) (I := (srcM _ HC).view.set) (S := Finset.univ) (Finset.subset_univ _)).1 $$ Htok
  icases Htok' with ⟨Hsrc, -⟩
  iapply (Transfers.wp_dmaBatch (countersEmb (U := UU)) 𝒱₀ (thr d c s) none (src := srcM _ HC) (dst := rowM k) (fs := m (tLoc d)) (fd := f1)
      (none : HIx 1) NN rfl subset_rfl (D := rowD m d c s) (j := k.val) (u := 0) hk (Nat.zero_le _) ?hD) $$ [Hsrc Hrow HB]
  case hD =>
    refine sep_elim_left.trans (Entails.of_eq ?_)
    unfold rowD rowPiece
    exact pointsTo_congr (row_landed m d c s k _ HC (by rw [HE]; exact word_le m d c s hpre _) HE f1)
  · isplitl [Hsrc]; · iexact Hsrc
    isplitl [Hrow]; · iexact Hrow
    iexact HB
  iintro HB
  sl_step
  isplitl [HB]; · iexact HB
  isplitl [Hs0]
  · iexists g0; isplitr
    · ipureintro; exact hg0
    · iexact Hs0
  isplitl [Hrows]; · iexact Hrows
  iexact Htoks

/-! ## The drain loop -/

theorem NN_pos : 0 < NN := by decide

/-- Before trip k of the drain loop: k waits made and recorded; while a wait is still to come, the batch with k rows'
    units consumed; after the last, the semaphore at zero and every row delivered. -/
def inv2 (O : CellTallies nD τ sig (HIx 1)) (W : Waits sig (HIx 1)) (k : ℕ) (_ : Unit) : sProp 𝕄 :=
  iprop(⌜k ≤ 512⌝ ∗ levAts (K (F := F)).L (K (F := F)).lev
    ∗ (∃ W', ⌜∀ p ∈ W', p ∈ W ∨ p.2 = none⌝ ∗ owes (thr d c s) O W')
    ∗ (if k < 512 then batch m d c s 512 (k * NN)
       else iprop(semVal (cellR d c s) 0 ∗ bigSep Finset.univ (rowD m d c s))))

/-- One trip of the drain loop: a wait for one row's units; the last of them hands every row back. -/
theorem drain_step (O : CellTallies nD τ sig (HIx 1)) (W : Waits sig (HIx 1)) (hO : ∀ g, O g none = 0)
    (k : Fin k0_t2_loop.trips) (acc : Unit) :
    inv2 m d c s O W k.val acc ⊢ wp frame (wpE (defs₀ (F := F)) 𝒱₀ (thr d c s) none) Set.univ
      (k0_t2_body (coordsV c s) tV (Memref.isWhole_whole _) aV (Memref.isWhole_whole _) oV (Memref.isWhole_whole _)
            sI (Memref.isWhole_whole _) sR (Memref.isWhole_whole _) cc0_scratch2 cc0_scoped0 cc0_scoped1 k acc)
      (inv2 m d c s O W (k.val + 1)) := by
  have hk : k.val < 512 := ht2 ▸ k.isLt
  unfold inv2
  simp only [if_pos hk]
  rcases Nat.lt_or_ge (k.val + 1) 512 with h1 | h1
  · simp only [if_pos h1]
    iintro ⟨-, #Hlv, ⟨%W', %hW', HO⟩, HB⟩
    unfold k0_t2_body
    simp only [Prog.lift, Prog.bind_op, Prog.bind_ret, Prog.pure_eq_ret]
    iapply (Transfers.wp_waitBatchO (countersEmb (U := UU)) 𝒱₀ (thr d c s) none (none : HIx 1) (N := NN) rfl (D := rowD m d c s) (u := k.val * NN)
      (by calc k.val * NN + NN = (k.val + 1) * NN := by ring
            _ < 512 * NN := Nat.mul_lt_mul_of_pos_right h1 NN_pos
            _ = NN * 512 := Nat.mul_comm _ _)) $$ [HB HO]
    · isplitl [HB]; · iexact HB
      isplitl [HO]; · iexact HO
      iapply ((K (F := F)).mayWait_none (SemLoc.dma cc0_scratch2.sem) hO); iexact Hlv
    iintro ⟨HB, HO⟩
    rw [wp_ret]; imodintro
    isplitr; · ipureintro; omega
    isplitr; · iexact Hlv
    isplitl [HO]
    · iexists _; isplitr
      rotate_left
      · iexact HO
      · ipureintro; intro p hp
        rcases Finset.mem_insert.mp hp with rfl | hp
        · exact .inr rfl
        · exact hW' p hp
    rw [show (k.val + 1) * NN = k.val * NN + NN by ring]; iexact HB
  · simp only [if_neg (Nat.not_lt.mpr h1)]
    iintro ⟨-, #Hlv, ⟨%W', %hW', HO⟩, HB⟩
    unfold k0_t2_body
    simp only [Prog.lift, Prog.bind_op, Prog.bind_ret, Prog.pure_eq_ret]
    iapply (Transfers.wp_waitBatchLastO (countersEmb (U := UU)) 𝒱₀ (thr d c s) none (none : HIx 1) (N := NN) rfl NN_pos (D := rowD m d c s) (u := k.val * NN)
      (by have : k.val + 1 = 512 := by omega
          calc k.val * NN + NN = (k.val + 1) * NN := by ring
            _ = NN * 512 := by rw [this, Nat.mul_comm])) $$ [HB HO]
    · isplitl [HB]; · iexact HB
      isplitl [HO]; · iexact HO
      iapply ((K (F := F)).mayWait_none (SemLoc.dma cc0_scratch2.sem) hO); iexact Hlv
    iintro ⟨Hall, Hsem, HO⟩
    rw [wp_ret]; imodintro
    isplitr; · ipureintro; omega
    isplitr; · iexact Hlv
    isplitl [HO]
    · iexists _; isplitr
      rotate_left
      · iexact HO
      · ipureintro; intro p hp
        rcases Finset.mem_insert.mp hp with rfl | hp
        · exact .inr rfl
        · exact hW' p hp
    isplitl [Hsem]; · iexact Hsem
    iexact Hall

/-! ## The whole task -/

/-- The rows scratch held whole is its rows from 0 on. -/
theorem rows_range (f : Buf (Elt F) ((thr d c s).loc cc0_scratch1)) :
    ((sR).view.loc (thr d c s) ↦{fullShare} f : sProp 𝕄) = bigSep (Ring.rangeSet 512 0 512) (fun t => rowPiece d c s t f) := by
  rw [Ring.rangeSet_univ]; exact rows_split d c s f

/-- Every row delivered is the rows scratch whole at its final contents. -/
theorem rows_join :
    (bigSep Finset.univ (rowD m d c s) : sProp 𝕄) = ((sR).view.loc (thr d c s) ↦{fullShare} Rfin m d c s) := by
  show bigSep Finset.univ (fun t => rowPiece d c s t (Rfin m d c s)) = _
  exact (rows_split d c s _).symm

/-- The 512 tokens by number are the tokens of the rows from 0 on. -/
theorem toks_range :
    (bigSep (Finset.range 512) fun i => ((tV).view.loc (thr d c s) ↦{Transfers.shareTokN (Transfers.shareTokN fullShare (tokNo c s)) i} m (tLoc d) : sProp 𝕄))
      = bigSep (Ring.rangeSet 512 0 512) (fun t => tabTok m d c s t.val) :=
  (Ring.bigSep_rangeSet_eq_range (NB := 512) (lo := 0) (hi := 512) (Φ := fun t => tabTok m d c s t.val) le_rfl
    (fun t => tabTok m d c s t) (fun k hk => by show tabTok m d c s k = tabTok m d c s (0 + k); rw [Nat.zero_add])).symm

/-- On the elements under a view, one whole piece written over any contents is the whole write of its payload. -/
theorem writes_whole_eq_write {sp : Space} {S : Shape} {e : EltTy} (v : View sig .scVector sp S e)
    (fo : v.ty.Contents (Elt F)) (w : S.Idx → Elt F e) :
    ∀ y ∈ v.set, v.writes (Elt F) fo [⟨Rect.whole S, w⟩] y = v.write (Elt F) fo w Finset.univ y := by
  intro y hy
  obtain ⟨x, rfl⟩ := View.exists_emb_of_mem_set v hy
  have h1 : v.read (Elt F) (v.writes (Elt F) fo [⟨Rect.whole S, w⟩]) x = v.read (Elt F) (v.write (Elt F) fo w Finset.univ) x := by
    rw [View.read_writes_whole, View.read_write_univ]
  rw [View.read_apply, View.read_apply] at h1
  exact (cast_inj _).mp h1

/-- The subcore's result rows, written whole from the rows scratch at its final contents, hold the lookup's values. -/
theorem out_part (w : S512x64.Idx → Elt F .f32) (hw : w = ReadAs.same.apply (View.read (Elt F) (sR).view (Rfin m d c s)))
    (fo : Buf (Elt F) ((oRows (coordsV c s)).view.loc (thr d c s))) :
    ((oRows (coordsV c s)).view.loc (thr d c s) ↦[(oRows (coordsV c s)).view.set]{fullShare}
        (oRows (coordsV c s)).view.writes (Elt F) fo [⟨Rect.whole S512x64, w⟩] : sProp 𝕄) ⊢ tdRes m d c s := by
  subst hw
  unfold tdRes
  exact (Entails.of_eq (pointsTo_congr fun y hy =>
    (writes_whole_eq_write (oRows (coordsV c s)).view fo _ y hy).trans (out_landed m d c s fo y hy))).trans
    (Entails.of_eq (pts_o (F := F) d c s (Gout m d)))

/-- One subcore's task: from its two read tokens, its result rows and its scoped storage, the kernel's body runs to the
    result rows holding the lookup's values, the scoped storage returned, the waits recorded. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d c s
        ∗ scopedBufs (thr d c s) ∗ scopedSems0 (thr d c s) ∗ owes (thr d c s) O W)
      ⊢ wp frame (wpE (defs₀ (F := F)) 𝒱₀ (thr d c s) none) Set.univ
          (cc0__sc_gather (coordsV c s) tV (Memref.isWhole_whole _) aV (Memref.isWhole_whole _) oV (Memref.isWhole_whole _)
            sI (Memref.isWhole_whole _) sR (Memref.isWhole_whole _) cc0_scratch2 cc0_scoped0 cc0_scoped1)
          fun _ => iprop(tdRes m d c s ∗ scopedBufs (thr d c s) ∗ scopedSems0 (thr d c s)
            ∗ ∃ W', ⌜∀ p ∈ W', p ∈ W ∨ p.2 = none⌝ ∗ owes (thr d c s) O W') := by
  simp only [cc0__sc_gather_eq_skeleton]; unfold cc0__sc_gather_skel
  rw [(K (F := F)).scopedBufs_V hF d _ _, SparseCore.Cfg.scopedSems0_V (Val := Elt F) d _ _, ownSems0_V, ownBufs_V]
  unfold goRes
  iintro ⟨#Hlv, -, ⟨Ha, Ht, Ho⟩, ⟨⟨%f0, Hs0⟩, ⟨%f1, Hs1⟩, Hbufs⟩, ⟨HsemR, HsemA, HsemB, Hsems⟩, HO⟩
  ihave Hmw := ((K (F := F)).mayWaits_none (thr := thr d c s) hO) $$ Hlv
  ihave Ha' := (Entails.of_eq (pts_a (F := F) d c s _ _).symm) $$ Ha
  ihave Ht' := (Entails.of_eq (pts_t (F := F) d c s _ _).symm) $$ Ht
  ihave Ho' := (Entails.of_eq (pts_o (F := F) d c s _).symm) $$ Ho
  ihave Hs0' := (Entails.of_eq (pts_sI (F := F) d c s _).symm) $$ Hs0
  ihave Hs1' := (Entails.of_eq (pts_sR (F := F) d c s _).symm) $$ Hs1
  -- the block's index words fetched
  sl_exec
  -- the subcore's table token as 512 tokens, one per row transfer
  ihave Ht2 := (Transfers.pointsTo_toks_range (Transfers.shareTokN fullShare (tokNo c s)) 512).1 $$ Ht'
  icases Ht2 with ⟨-, Htoks⟩
  ihave Htoks' := (Entails.of_eq (toks_range m d c s)) $$ Htoks
  -- the rows scratch as its 512 rows
  ihave Hrows := (Entails.of_eq (rows_range d c s f1)) $$ Hs1'
  -- the batch of 512 row transfers on the rows' semaphore
  imod (Transfers.batch_alloc' (Lvl := ℕ) (countersEmb (U := UU)) (thr d c s) (none : HIx 1) NN (rowD m d c s) (sm := .dma cc0_scratch2.sem) (E := Set.univ)) $$ HsemR with HB
  sl_for (inv1 m d c s f1) $$ [HB Hs0' Hrows Htoks']
  case region => intro k acc; exact issue_step m d c s hpre f1 k acc
  · unfold inv1
    isplitl [HB]; · iexact HB
    isplitl [Hs0']
    · iexists _; isplitr
      rotate_left
      · iexact Hs0'
      · ipureintro; exact idx_landed m d c s f0
    isplitl [Hrows]; · iexact Hrows
    iexact Htoks'
  iintro %_ HI
  unfold inv1
  icases HI with ⟨HB, ⟨%g0, -, Hs0⟩, -, -⟩
  -- the drain
  sl_for (inv2 m d c s O W) $$ [HB HO]
  case region => intro k acc; exact drain_step m d c s O W hO k acc
  · unfold inv2
    rw [if_pos (by decide : 0 < 512), Nat.zero_mul, show Scf.trips k0_t1_loop.lb k0_t1_loop.ub k0_t1_loop.st = 512 from ht1]
    isplitr; · ipureintro; omega
    isplitr; · iexact Hlv
    isplitl [HO]
    · iexists _; isplitr
      rotate_left
      · iexact HO
      · ipureintro; intro p hp
        rcases Finset.mem_insert.mp hp with rfl | hp
        · exact .inr rfl
        · exact .inl hp
    iexact HB
  iintro %_ HI
  unfold inv2
  rw [show Scf.trips k0_t2_loop.lb k0_t2_loop.ub k0_t2_loop.st = 512 from ht2, if_neg (Nat.lt_irrefl 512)]
  icases HI with ⟨-, -, ⟨%W', %hW', HO⟩, HsemR, Hall⟩
  -- every row landed: the rows scratch whole, holding the rows the words name
  ihave Hs1 := (Entails.of_eq (rows_join m d c s)) $$ Hall
  -- the write-back
  sl_exec
  sl_step
  isplitl [Ho']
  · iapply (out_part m d c s _ ?hw (m (oLoc d)))
    all_goals first | iexact Ho' | skip
    rfl
  isplitl [Hs0 Hs1 Hbufs]
  · isplitl [Hs0]; · iexists _; iexact Hs0
    isplitl [Hs1]; · iexists _; iexact Hs1
    iexact Hbufs
  isplitl [HsemR HsemA HsemB Hsems]
  · isplitl [HsemR]; · iexact HsemR
    isplitl [HsemA]; · iexact HsemA
    isplitl [HsemB]; · iexact HsemB
    iexact Hsems
  iexists _; isplitr
  rotate_left
  · iexact HO
  · ipureintro; intro p hp
    rcases Finset.mem_insert.mp hp with rfl | hp
    · exact .inr rfl
    · exact hW' p hp

end Tile

/-! ## The launch theorem's obligation -/

variable [FloatOps F]

theorem defs₀_vector (c : Fin τ.nSC) (s : Fin τ.nSub) :
    defs₀ (F := F) (.scVector c s) 0 ()
      = SparseCore.onTile hcore0 hsub0 (fun c s => cc0__sc_gather (coordsV c s)
          tV (Memref.isWhole_whole _) aV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task, as the launch theorem asks for it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d c i hF hpre O W hO).trans (wp_mono frame _ _ fun _ => obl_post)

end Cert.Proof.KB

end
-- ==== Proof.lean ====
/-
  The certificate's five claims for the embedding lookup out[n, :] = table[act[n], :].

  Kernel side (both float instances): the device's 32 vector subcores each fetch 512 index words, issue 512 row
  transfers on one semaphore, drain them with 512 waits and write their 512 result rows back. Run through the SparseCore
  launch theorem this gives, for every weakly fair execution, termination without fault, the two arguments unchanged and
  the result array equal to the lookup function G of the arguments. The precondition's range 0 ≤ act[n] ≤ 999999 is what
  makes every row transfer's source a row of the table.
  Reference side: jnp.take's wrap-around select, range mask and fill all drop out under the same range, leaving the
  gather, which is G as well.
  The three frames are these runs with the values forgotten; the idealization rewrote nothing, so that conjunct is
  trivial; the algebraic conjunct is the two runs side by side at the same G.
-/
import proofs.«202693_g82240033784155_cont_sun_c4_174_23_alg».proof.Defs
import proofs.«202693_g82240033784155_cont_sun_c4_174_23_alg».proof.Proof.Gen.Kernel
import proofs.«202693_g82240033784155_cont_sun_c4_174_23_alg».proof.Proof.Gen.Kernel.Skeleton
import proofs.«202693_g82240033784155_cont_sun_c4_174_23_alg».proof.Proof.Gen.KernelIdeal
import proofs.«202693_g82240033784155_cont_sun_c4_174_23_alg».proof.Proof.Gen.KernelIdeal.Skeleton
import proofs.«202693_g82240033784155_cont_sun_c4_174_23_alg».proof.Proof.Gen.ReferenceIdeal
import proofs.«202693_g82240033784155_cont_sun_c4_174_23_alg».proof.Proof.Gen.Pre_input_domain
import proofs.«202693_g82240033784155_cont_sun_c4_174_23_alg».proof.Proof.PreRange
import proofs.«202693_g82240033784155_cont_sun_c4_174_23_alg».proof.Proof.RefRun
import proofs.«202693_g82240033784155_cont_sun_c4_174_23_alg».proof.Proof.KI.Launch
import proofs.«202693_g82240033784155_cont_sun_c4_174_23_alg».proof.Proof.KI.Body
import proofs.«202693_g82240033784155_cont_sun_c4_174_23_alg».proof.Proof.KB.Launch
import proofs.«202693_g82240033784155_cont_sun_c4_174_23_alg».proof.Proof.KB.Body
import Idealize.ShloMosaic.Adequacy
import Idealize.ShloMosaic.Init

noncomputable section

namespace Cert.Proof

open Idealize.ShloMosaic Idealize.SL.Sem

/-- The precondition gives every index word a row of the table, at either float instance. -/
theorem preOK_bits (m : (ℓ : Loc Cert.Kernel.nD Cert.Kernel.τ Cert.Kernel.sig) → Buf (Elt Bits) ℓ) (h : Cert.Pre_Kernel m) :
    Cert.Proof.KB.PreOK (F := Bits) m := fun d n => Cert.Lookup.act_range (F := Bits) _ _ (h d) n
theorem preOK_ideal (m : (ℓ : Loc Cert.KernelIdeal.nD Cert.KernelIdeal.τ Cert.KernelIdeal.sig) → Buf (Elt Ideal) ℓ) (h : Cert.Pre_KernelIdeal m) :
    Cert.Proof.KI.PreOK (F := Ideal) m := fun d n => Cert.Lookup.act_range (F := Ideal) _ _ (h d) n

theorem frame_k : Cert.frame_Kernel := fun m ρ hpre =>
  (θ_run (Cert.Kernel.defs (F := Bits)) _ _).mono (fun _ h c => ⟨(h c).2.1, (h c).2.2⟩) (Cert.Proof.KB.run_main (F := Bits) m ρ (Cert.Proof.KB.tileObl m Cert.Proof.KB.facts (preOK_bits m hpre)))

theorem frame_ki : Cert.frame_KernelIdeal := fun m ρ hpre =>
  (θ_run (Cert.KernelIdeal.defs (F := Ideal)) _ _).mono (fun _ h c => ⟨(h c).2.1, (h c).2.2⟩) (Cert.Proof.KI.run_main (F := Ideal) m ρ (Cert.Proof.KI.tileObl m Cert.Proof.KI.facts (preOK_ideal m hpre)))

theorem frame_r : Cert.frame_ReferenceIdeal := fun m ρ hpre =>
  (θ_run (Cert.ReferenceIdeal.defs (F := Ideal)) _ _).mono (fun _ h c => ⟨(h c).2.1, (h c).2.2⟩) (Cert.ReferenceIdeal.RefRun.run m ρ hpre)

/-- Both idealized programs end with the lookup of the (agreeing) arguments. -/
theorem algebraic : Cert.algebraic_KernelIdeal_ReferenceIdeal := by
  intro m ρ m' ρ' hpre hagree
  have hpre' : Cert.Pre_ReferenceIdeal m' := fun c => by
    have := hpre c
    rw [← (hagree c).1, ← (hagree c).2] at this
    exact this
  refine ⟨fun c => Cert.Proof.KI.Gout (F := Ideal) m c,
    Cert.Proof.KI.run_main (F := Ideal) m ρ (Cert.Proof.KI.tileObl m Cert.Proof.KI.facts (preOK_ideal m hpre)), ?_⟩
  refine (θ_run (Cert.ReferenceIdeal.defs (F := Ideal)) _ _).mono (fun _ h c => ⟨(h c).1.trans ?_, (h c).2.1, (h c).2.2⟩)
    (Cert.ReferenceIdeal.RefRun.run m' ρ' hpre')
  rw [(hagree c).1, (hagree c).2]
  rfl

theorem claim : Cert.Claim := ⟨Cert.Kernel.Gen.facts, Cert.KernelIdeal.Gen.facts, Cert.ReferenceIdeal.Gen.facts, Cert.Pre_input_domain.Gen.facts,
  frame_k, frame_ki, frame_r, trivial, algebraic⟩

end Cert.Proof

end
